-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40000x128 : Shape := ⟨2, ![40000, 128]⟩
abbrev S2000000 : Shape := ⟨1, ![2000000]⟩
abbrev S1000000 : Shape := ⟨1, ![1000000]⟩
abbrev S8192 : Shape := ⟨1, ![8192]⟩
abbrev S16384 : Shape := ⟨1, ![16384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S100000x128 .f32) (main_arg1 : FVec F S40000x128 .f32) (main_arg2 : FVec F S2000000 .f32) (main_arg3 : IVec S1000000 32) (main_arg4 : IVec S1000000 32) (main_arg5 : IVec S8192 32) (main_arg6 : IVec S8192 32) (main_arg7 : IVec S8192 32) (main_arg8 : IVec S16384 32) (main_arg9 : IVec S16384 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S100000x128 : Shape := ⟨2, ![100000, 128]⟩
abbrev S40000x128 : Shape := ⟨2, ![40000, 128]⟩
abbrev S2000000 : Shape := ⟨1, ![2000000]⟩
abbrev S1000000 : Shape := ⟨1, ![1000000]⟩
abbrev S8192 : Shape := ⟨1, ![8192]⟩
abbrev S16384 : Shape := ⟨1, ![16384]⟩
abbrev S_ : Shape := ⟨0, ![]⟩
abbrev S140000x128 : Shape := ⟨2, ![140000, 128]⟩
abbrev S2000000x1 : Shape := ⟨2, ![2000000, 1]⟩
abbrev S2000000x128 : Shape := ⟨2, ![2000000, 128]⟩
abbrev S2000x128 : Shape := ⟨2, ![2000, 128]⟩
abbrev S8192x1 : Shape := ⟨2, ![8192, 1]⟩
abbrev S8192x128 : Shape := ⟨2, ![8192, 128]⟩
abbrev S16384x1 : Shape := ⟨2, ![16384, 1]⟩
abbrev S16384x128 : Shape := ⟨2, ![16384, 128]⟩
abbrev S1x6 : Shape := ⟨2, ![1, 6]⟩
abbrev S1 : Shape := ⟨1, ![1]⟩
abbrev S1x1 : Shape := ⟨2, ![1, 1]⟩
abbrev S6 : Shape := ⟨1, ![6]⟩

abbrev nBuf : Space → Nat
  | .hbm => 158
  | .vmem => 20
  | .smem => 0
  | _ => 0

abbrev hbmTy0_0 (i : Nat) : BufTy := match i % 128 with
  | 0 => ⟨S100000x128, .f32⟩
  | 1 => ⟨S40000x128, .f32⟩
  | 2 => ⟨S2000000, .f32⟩
  | 3 => ⟨S1000000, .i32⟩
  | 4 => ⟨S1000000, .i32⟩
  | 5 => ⟨S8192, .i32⟩
  | 6 => ⟨S8192, .i32⟩
  | 7 => ⟨S8192, .i32⟩
  | 8 => ⟨S16384, .i32⟩
  | 9 => ⟨S16384, .i32⟩
  | 10 => ⟨S_, .i32⟩
  | 11 => ⟨S1000000, .i32⟩
  | 12 => ⟨S1000000, .i32⟩
  | 13 => ⟨S2000000, .i32⟩
  | 14 => ⟨S_, .i32⟩
  | 15 => ⟨S1000000, .i32⟩
  | 16 => ⟨S1000000, .i32⟩
  | 17 => ⟨S2000000, .i32⟩
  | 18 => ⟨S140000x128, .f32⟩
  | 19 => ⟨S2000000x1, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x128, .f32⟩
  | 29 => ⟨S2000000x128, .f32⟩
  | 30 => ⟨S2000000x128, .f32⟩
  | 31 => ⟨S_, .f32⟩
  | 32 => ⟨S140000x128, .f32⟩
  | 33 => ⟨S2000000x1, .i32⟩
  | 34 => ⟨S140000x128, .f32⟩
  | 35 => ⟨S2000000x1, .f32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S2000000x128, .f32⟩
  | 45 => ⟨S2000000x128, .f32⟩
  | 46 => ⟨S2000000x128, .f32⟩
  | 47 => ⟨S_, .f32⟩
  | 48 => ⟨S140000x128, .f32⟩
  | 49 => ⟨S2000000x1, .i32⟩
  | 50 => ⟨S140000x128, .f32⟩
  | 51 => ⟨S2000000x1, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x128, .f32⟩
  | 61 => ⟨S2000000x128, .f32⟩
  | 62 => ⟨S2000000x128, .f32⟩
  | 63 => ⟨S_, .f32⟩
  | 64 => ⟨S140000x128, .f32⟩
  | 65 => ⟨S2000000x1, .i32⟩
  | 66 => ⟨S140000x128, .f32⟩
  | 67 => ⟨S140000x128, .f32⟩
  | 68 => ⟨S100000x128, .f32⟩
  | 69 => ⟨S40000x128, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x128, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x128, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x128, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384x128, .f32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384x128, .f32⟩
  | 115 => ⟨S1x6, .f32⟩
  | 116 => ⟨S6, .f32⟩
  | 117 => ⟨S1, .f32⟩
  | 118 => ⟨S_, .f32⟩
  | 119 => ⟨S1, .f32⟩
  | 120 => ⟨S_, .f32⟩
  | 121 => ⟨S1, .f32⟩
  | 122 => ⟨S_, .f32⟩
  | 123 => ⟨S1, .f32⟩
  | 124 => ⟨S_, .f32⟩
  | 125 => ⟨S1, .f32⟩
  | 126 => ⟨S_, .f32⟩
  | 127 => ⟨S1, .f32⟩
  | _ => ⟨S100000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S1x1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S1x6, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S1x1, .f32⟩
  | .local _ .vmem, ⟨19, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_cst_20 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_cst_24 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_cst_26 : Ref sig .tc := ⟨.hbm, 155, rfl⟩
abbrev main_v117 : Ref sig .tc := ⟨.hbm, 156, rfl⟩
abbrev main_v118 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18

abbrev nD : Nat := 1
abbrev τ : Topo := Topo.v7x

variable {F : FTy → Type} [FloatOps F]

abbrev grid0 : Pipeline.Grid := ⟨1, ![70], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![2], ![false]⟩

def k2_cond2 (i : grid2.Coords) : BitVec 1 :=
  let arg0 : BitVec 32 := BitVec.ofNat 32 (i 0).val
  let c1_i32 : BitVec 32 := 1#32
  let v18 : BitVec 1 := Scalar.cmpi .eq arg0 c1_i32
  let v19 : BitVec 32 := Scalar.extui v18
  let c0_i32_9 : BitVec 32 := 0#32
  let v20 : BitVec 1 := Scalar.cmpi .ne v19 c0_i32_9
  v20

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bcast_S_S1000000 : S_.BroadcastsInDim S1000000 (![] : Fin 0 → Fin S1000000.rank)
  concatenates_S1000000_S1000000_S2000000_d0 : Shape.Concatenates [S1000000, S1000000] S2000000 0
  concatenates_S100000x128_S40000x128_S140000x128_d0 : Shape.Concatenates [S100000x128, S40000x128] S140000x128 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S140000x128 : S_.BroadcastsInDim S140000x128 (![] : Fin 0 → Fin S140000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S140000x128_S100000x128_0_0 : S140000x128.Slices ![0, 0] S100000x128
  slices_S140000x128_S40000x128_100000_0 : S140000x128.Slices ![100000, 0] S40000x128
  bcast_S_S8192 : S_.BroadcastsInDim S8192 (![] : Fin 0 → Fin S8192.rank)
  bcast_S8192_S8192x1_0 : S8192.BroadcastsInDim S8192x1 (![0] : Fin 1 → Fin S8192x1.rank)
  bcast_S_S16384 : S_.BroadcastsInDim S16384 (![] : Fin 0 → Fin S16384.rank)
  bcast_S16384_S16384x1_0 : S16384.BroadcastsInDim S16384x1 (![0] : Fin 1 → Fin S16384x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  concatenates_S1x1_S1x1_S1x1_S1x1_S1x1_S1x1_S1x6_d1 : Shape.Concatenates [S1x1, S1x1, S1x1, S1x1, S1x1, S1x1] S1x6 1
  inb_S1x6_S1x6_0_0 : ∀ a, (![0, 0] : Fin 2 → Nat) a + S1x6.size a ≤ S1x6.size a
  h_S1x6 : 0 < S1x6.numel
  shapeCasts_S1x6_S6 : S1x6.ShapeCasts S6
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  gather_S140000x128_S2000000x1_S2000000x128_1_0_n_n_0_1_1128_wf : GatherDims.WF S140000x128 S2000000x1 S2000000x128 [1] [0] [] [0] [] 1 ![1, 128]
  scatter_S140000x128_S2000000x1_S2000000x128_1_0_0_1_wf : ScatterDims.WF S140000x128 S2000000x1 S2000000x128 [1] [0] [0] 1
  gather_S100000x128_S8192x1_S8192x128_1_0_n_n_0_1_1128_wf : GatherDims.WF S100000x128 S8192x1 S8192x128 [1] [0] [] [0] [] 1 ![1, 128]
  gather_S40000x128_S8192x1_S8192x128_1_0_n_n_0_1_1128_wf : GatherDims.WF S40000x128 S8192x1 S8192x128 [1] [0] [] [0] [] 1 ![1, 128]
  gather_S100000x128_S16384x1_S16384x128_1_0_n_n_0_1_1128_wf : GatherDims.WF S100000x128 S16384x1 S16384x128 [1] [0] [] [0] [] 1 ![1, 128]
  gather_S40000x128_S16384x1_S16384x128_1_0_n_n_0_1_1128_wf : GatherDims.WF S40000x128 S16384x1 S16384x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S140000x128.size a
  hwx0_0 : ∀ i : grid0.Coords, EltTy.bits .f32 = 32 ∨ (Rect.block (s := S140000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S140000x128.size a
  hwx0_1 : ∀ i : grid0.Coords, EltTy.bits .f32 = 32 ∨ (Rect.block (s := S140000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S140000x128.size a
  hwx0_2 : ∀ i : grid0.Coords, EltTy.bits .f32 = 32 ∨ (Rect.block (s := S140000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S140000x128.size a
  hwx0_3 : ∀ i : grid0.Coords, EltTy.bits .f32 = 32 ∨ (Rect.block (s := S140000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S140000x128.size a
  hwx0_4 : ∀ i : grid0.Coords, EltTy.bits .f32 = 32 ∨ (Rect.block (s := S140000x128) S2000x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .f32 = 32 ∨ (Rect.block (s := S8192x128) S8192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x6.size a ≤ S1x6.size a
  hwx1_3 : ∀ i : grid1.Coords, EltTy.bits .f32 = 32 ∨ (Rect.block (s := S1x6) S1x6.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S16384x128.size a
  hwx2_0 : ∀ i : grid2.Coords, EltTy.bits .f32 = 32 ∨ (Rect.block (s := S16384x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S16384x128.size a
  hwx2_1 : ∀ i : grid2.Coords, EltTy.bits .f32 = 32 ∨ (Rect.block (s := S16384x128) S8192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def gather_S140000x128_S2000000x1_S2000000x128_1_0_n_n_0_1_1128 : GatherDims S140000x128 S2000000x1 S2000000x128 where
  offsetDims := [1]
  collapsedSliceDims := [0]
  operandBatchingDims := []
  startIndicesBatchingDims := []
  startIndexMap := [0]
  indexVectorDim := 1
  sliceSizes := ![1, 128]
  wf := gather_S140000x128_S2000000x1_S2000000x128_1_0_n_n_0_1_1128_wf
def scatter_S140000x128_S2000000x1_S2000000x128_1_0_0_1 : ScatterDims S140000x128 S2000000x1 S2000000x128 where
  updateWindowDims := [1]
  insertedWindowDims := [0]
  scatterDimsToOperandDims := [0]
  indexVectorDim := 1
  wf := scatter_S140000x128_S2000000x1_S2000000x128_1_0_0_1_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def gather_S40000x128_S8192x1_S8192x128_1_0_n_n_0_1_1128 : GatherDims S40000x128 S8192x1 S8192x128 where
  offsetDims := [1]
  collapsedSliceDims := [0]
  operandBatchingDims := []
  startIndicesBatchingDims := []
  startIndexMap := [0]
  indexVectorDim := 1
  sliceSizes := ![1, 128]
  wf := gather_S40000x128_S8192x1_S8192x128_1_0_n_n_0_1_1128_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S40000x128_S16384x1_S16384x128_1_0_n_n_0_1_1128 : GatherDims S40000x128 S16384x1 S16384x128 where
  offsetDims := [1]
  collapsedSliceDims := [0]
  operandBatchingDims := []
  startIndicesBatchingDims := []
  startIndexMap := [0]
  indexVectorDim := 1
  sliceSizes := ![1, 128]
  wf := gather_S40000x128_S16384x1_S16384x128_1_0_n_n_0_1_1128_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v55) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v62) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v84) S1x6.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v76) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v105) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S40000x128 : Shape := ⟨2, ![40000, 128]⟩
abbrev S2000000 : Shape := ⟨1, ![2000000]⟩
abbrev S1000000 : Shape := ⟨1, ![1000000]⟩
abbrev S8192 : Shape := ⟨1, ![8192]⟩
abbrev S16384 : Shape := ⟨1, ![16384]⟩
abbrev S_ : Shape := ⟨0, ![]⟩
abbrev S140000x128 : Shape := ⟨2, ![140000, 128]⟩
abbrev S2000000x1 : Shape := ⟨2, ![2000000, 1]⟩
abbrev S2000000x128 : Shape := ⟨2, ![2000000, 128]⟩
abbrev S8192x1 : Shape := ⟨2, ![8192, 1]⟩
abbrev S8192x128 : Shape := ⟨2, ![8192, 128]⟩
abbrev S16384x128 : Shape := ⟨2, ![16384, 128]⟩
abbrev S16384x1 : Shape := ⟨2, ![16384, 1]⟩

abbrev nBuf : Space → Nat
  | .hbm => 194
  | .vmem => 0
  | .smem => 0
  | _ => 0

abbrev hbmTy0_0 (i : Nat) : BufTy := match i % 128 with
  | 0 => ⟨S100000x128, .f32⟩
  | 1 => ⟨S40000x128, .f32⟩
  | 2 => ⟨S2000000, .f32⟩
  | 3 => ⟨S1000000, .i32⟩
  | 4 => ⟨S1000000, .i32⟩
  | 5 => ⟨S8192, .i32⟩
  | 6 => ⟨S8192, .i32⟩
  | 7 => ⟨S8192, .i32⟩
  | 8 => ⟨S16384, .i32⟩
  | 9 => ⟨S16384, .i32⟩
  | 10 => ⟨S_, .i32⟩
  | 11 => ⟨S1000000, .i32⟩
  | 12 => ⟨S1000000, .i32⟩
  | 13 => ⟨S2000000, .i32⟩
  | 14 => ⟨S_, .i32⟩
  | 15 => ⟨S1000000, .i32⟩
  | 16 => ⟨S1000000, .i32⟩
  | 17 => ⟨S2000000, .i32⟩
  | 18 => ⟨S140000x128, .f32⟩
  | 19 => ⟨S2000000x1, .f32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x128, .f32⟩
  | 29 => ⟨S2000000x128, .f32⟩
  | 30 => ⟨S2000000x128, .f32⟩
  | 31 => ⟨S_, .f32⟩
  | 32 => ⟨S140000x128, .f32⟩
  | 33 => ⟨S2000000x1, .i32⟩
  | 34 => ⟨S140000x128, .f32⟩
  | 35 => ⟨S140000x128, .f32⟩
  | 36 => ⟨S2000000x1, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000x128, .f32⟩
  | 46 => ⟨S2000000x128, .f32⟩
  | 47 => ⟨S2000000x128, .f32⟩
  | 48 => ⟨S_, .f32⟩
  | 49 => ⟨S140000x128, .f32⟩
  | 50 => ⟨S2000000x1, .i32⟩
  | 51 => ⟨S140000x128, .f32⟩
  | 52 => ⟨S140000x128, .f32⟩
  | 53 => ⟨S2000000x1, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x128, .f32⟩
  | 63 => ⟨S2000000x128, .f32⟩
  | 64 => ⟨S2000000x128, .f32⟩
  | 65 => ⟨S_, .f32⟩
  | 66 => ⟨S140000x128, .f32⟩
  | 67 => ⟨S2000000x1, .i32⟩
  | 68 => ⟨S140000x128, .f32⟩
  | 69 => ⟨S140000x128, .f32⟩
  | 70 => ⟨S_, .f32⟩
  | 71 => ⟨S140000x128, .f32⟩
  | 72 => ⟨S140000x128, .f32⟩
  | 73 => ⟨S100000x128, .f32⟩
  | 74 => ⟨S40000x128, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S8192x128, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x128, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S8192x128, .f32⟩
  | 102 => ⟨S16384x128, .f32⟩
  | 103 => ⟨S16384x128, .f32⟩
  | 104 => ⟨S16384x128, .f32⟩
  | 105 => ⟨S_, .f32⟩
  | 106 => ⟨S16384, .f32⟩
  | 107 => ⟨S16384, .f32⟩
  | 108 => ⟨S16384, .f32⟩
  | 109 => ⟨S_, .f32⟩
  | 110 => ⟨S16384, .f32⟩
  | 111 => ⟨S16384, .f32⟩
  | 112 => ⟨S_, .f32⟩
  | 113 => ⟨S16384, .f32⟩
  | 114 => ⟨S16384, .f32⟩
  | 115 => ⟨S_, .f32⟩
  | 116 => ⟨S8192, .f32⟩
  | 117 => ⟨S_, .f32⟩
  | 118 => ⟨S8192, .f32⟩
  | 119 => ⟨S16384, .f32⟩
  | 120 => ⟨S16384, .f32⟩
  | 121 => ⟨S16384, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S100000x128, .f32⟩

abbrev hbmTy0_1 (i : Nat) : BufTy := match i % 128 with
  | 0 => ⟨S16384, .f32⟩
  | 1 => ⟨S16384, .f32⟩
  | 2 => ⟨S16384, .f32⟩
  | 3 => ⟨S_, .f32⟩
  | 4 => ⟨S_, .f32⟩
  | 5 => ⟨S_, .f32⟩
  | 6 => ⟨S_, .f32⟩
  | 7 => ⟨S_, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x128, .f32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S16384x128, .f32⟩
  | 26 => ⟨S16384x128, .f32⟩
  | 27 => ⟨S_, .f32⟩
  | 28 => ⟨S16384, .f32⟩
  | 29 => ⟨S16384, .f32⟩
  | 30 => ⟨S16384, .f32⟩
  | 31 => ⟨S_, .f32⟩
  | 32 => ⟨S16384, .f32⟩
  | 33 => ⟨S16384, .f32⟩
  | 34 => ⟨S_, .f32⟩
  | 35 => ⟨S16384, .f32⟩
  | 36 => ⟨S16384, .f32⟩
  | 37 => ⟨S16384, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S16384, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_cst_22 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_23 : Ref sig .tc := ⟨.hbm, 131, rfl⟩
abbrev main_v96 : Ref sig .tc := ⟨.hbm, 132, rfl⟩
abbrev main_cst_24 : Ref sig .tc := ⟨.hbm, 133, rfl⟩
abbrev main_v97 : Ref sig .tc := ⟨.hbm, 134, rfl⟩
abbrev main_v98 : Ref sig .tc := ⟨.hbm, 135, rfl⟩
abbrev main_c_25 : Ref sig .tc := ⟨.hbm, 136, rfl⟩
abbrev main_v99 : Ref sig .tc := ⟨.hbm, 137, rfl⟩
abbrev main_v100 : Ref sig .tc := ⟨.hbm, 138, rfl⟩
abbrev main_c_26 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_27 : Ref sig .tc := ⟨.hbm, 145, rfl⟩
abbrev main_v106 : Ref sig .tc := ⟨.hbm, 146, rfl⟩
abbrev main_v107 : Ref sig .tc := ⟨.hbm, 147, rfl⟩
abbrev main_c_28 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_29 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_30 : Ref sig .tc := ⟨.hbm, 159, rfl⟩
abbrev main_v117 : Ref sig .tc := ⟨.hbm, 160, rfl⟩
abbrev main_v118 : Ref sig .tc := ⟨.hbm, 161, rfl⟩
abbrev main_cst_31 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_32 : Ref sig .tc := ⟨.hbm, 166, rfl⟩
abbrev main_v122 : Ref sig .tc := ⟨.hbm, 167, rfl⟩
abbrev main_cst_33 : Ref sig .tc := ⟨.hbm, 168, rfl⟩
abbrev main_v123 : Ref sig .tc := ⟨.hbm, 169, rfl⟩
abbrev main_cst_34 : Ref sig .tc := ⟨.hbm, 170, rfl⟩
abbrev main_v124 : Ref sig .tc := ⟨.hbm, 171, rfl⟩
abbrev main_cst_35 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_36 : Ref sig .tc := ⟨.hbm, 177, rfl⟩
abbrev main_v129 : Ref sig .tc := ⟨.hbm, 178, rfl⟩
abbrev main_cst_37 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_38 : Ref sig .tc := ⟨.hbm, 184, rfl⟩
abbrev main_v134 : Ref sig .tc := ⟨.hbm, 185, rfl⟩
abbrev main_v135 : Ref sig .tc := ⟨.hbm, 186, rfl⟩
abbrev main_cst_39 : Ref sig .tc := ⟨.hbm, 187, rfl⟩
abbrev main_v136 : Ref sig .tc := ⟨.hbm, 188, rfl⟩
abbrev main_cst_40 : Ref sig .tc := ⟨.hbm, 189, rfl⟩
abbrev main_v137 : Ref sig .tc := ⟨.hbm, 190, rfl⟩
abbrev main_cst_41 : Ref sig .tc := ⟨.hbm, 191, rfl⟩
abbrev main_v138 : Ref sig .tc := ⟨.hbm, 192, rfl⟩
abbrev main_v139 : Ref sig .tc := ⟨.hbm, 193, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  concatenates_S1000000_S1000000_S2000000_d0 : Shape.Concatenates [S1000000, S1000000] S2000000 0
  concatenates_S100000x128_S40000x128_S140000x128_d0 : Shape.Concatenates [S100000x128, S40000x128] S140000x128 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S140000x128 : S_.BroadcastsInDim S140000x128 (![] : Fin 0 → Fin S140000x128.rank)
  slices_S140000x128_S100000x128_0_0 : S140000x128.Slices ![0, 0] S100000x128
  slices_S140000x128_S40000x128_100000_0 : S140000x128.Slices ![100000, 0] S40000x128
  bcast_S_S8192 : S_.BroadcastsInDim S8192 (![] : Fin 0 → Fin S8192.rank)
  bcast_S8192_S8192x1_0 : S8192.BroadcastsInDim S8192x1 (![0] : Fin 1 → Fin S8192x1.rank)
  concatenates_S8192x128_S8192x128_S16384x128_d0 : Shape.Concatenates [S8192x128, S8192x128] S16384x128 0
  reducesTo_S16384x128_S16384_d1 : S16384x128.ReducesTo [1] S16384
  h_S_ : 0 < S_.numel
  bcast_S_S16384 : S_.BroadcastsInDim S16384 (![] : Fin 0 → Fin S16384.rank)
  concatenates_S8192_S8192_S16384_d0 : Shape.Concatenates [S8192, S8192] S16384 0
  reducesTo_S16384_S_d0 : S16384.ReducesTo [0] S_
  bcast_S16384_S16384x1_0 : S16384.BroadcastsInDim S16384x1 (![0] : Fin 1 → Fin S16384x1.rank)
  gather_S140000x128_S2000000x1_S2000000x128_1_0_n_n_0_1_1128_wf : GatherDims.WF S140000x128 S2000000x1 S2000000x128 [1] [0] [] [0] [] 1 ![1, 128]
  scatter_S140000x128_S2000000x1_S2000000x128_1_0_0_1_wf : ScatterDims.WF S140000x128 S2000000x1 S2000000x128 [1] [0] [0] 1
  gather_S100000x128_S8192x1_S8192x128_1_0_n_n_0_1_1128_wf : GatherDims.WF S100000x128 S8192x1 S8192x128 [1] [0] [] [0] [] 1 ![1, 128]
  gather_S40000x128_S8192x1_S8192x128_1_0_n_n_0_1_1128_wf : GatherDims.WF S40000x128 S8192x1 S8192x128 [1] [0] [] [0] [] 1 ![1, 128]
  gather_S100000x128_S16384x1_S16384x128_1_0_n_n_0_1_1128_wf : GatherDims.WF S100000x128 S16384x1 S16384x128 [1] [0] [] [0] [] 1 ![1, 128]
  gather_S40000x128_S16384x1_S16384x128_1_0_n_n_0_1_1128_wf : GatherDims.WF S40000x128 S16384x1 S16384x128 [1] [0] [] [0] [] 1 ![1, 128]

variable [Facts₀]

def gather_S140000x128_S2000000x1_S2000000x128_1_0_n_n_0_1_1128 : GatherDims S140000x128 S2000000x1 S2000000x128 where
  offsetDims := [1]
  collapsedSliceDims := [0]
  operandBatchingDims := []
  startIndicesBatchingDims := []
  startIndexMap := [0]
  indexVectorDim := 1
  sliceSizes := ![1, 128]
  wf := gather_S140000x128_S2000000x1_S2000000x128_1_0_n_n_0_1_1128_wf
def scatter_S140000x128_S2000000x1_S2000000x128_1_0_0_1 : ScatterDims S140000x128 S2000000x1 S2000000x128 where
  updateWindowDims := [1]
  insertedWindowDims := [0]
  scatterDimsToOperandDims := [0]
  indexVectorDim := 1
  wf := scatter_S140000x128_S2000000x1_S2000000x128_1_0_0_1_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def gather_S40000x128_S8192x1_S8192x128_1_0_n_n_0_1_1128 : GatherDims S40000x128 S8192x1 S8192x128 where
  offsetDims := [1]
  collapsedSliceDims := [0]
  operandBatchingDims := []
  startIndicesBatchingDims := []
  startIndexMap := [0]
  indexVectorDim := 1
  sliceSizes := ![1, 128]
  wf := gather_S40000x128_S8192x1_S8192x128_1_0_n_n_0_1_1128_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S40000x128_S16384x1_S16384x128_1_0_n_n_0_1_1128 : GatherDims S40000x128 S16384x1 S16384x128 where
  offsetDims := [1]
  collapsedSliceDims := [0]
  operandBatchingDims := []
  startIndicesBatchingDims := []
  startIndexMap := [0]
  indexVectorDim := 1
  sliceSizes := ![1, 128]
  wf := gather_S40000x128_S16384x1_S16384x128_1_0_n_n_0_1_1128_wf

class Facts : Prop extends Facts₀ where

variable [Facts]
-- ==== Proof.RefTables.lean ====
/-
  The small tables of embedding rows that the reference program's two losses are functions of: the pooled embedding table's
  rows gathered at the batch's users, positive items, negative items, and at the sampled users and items; and the last of
  the three propagated layer tables. Each is the program's own term for it, given a name.
-/
import proofs.«100895_j67216238183228_1_alg».proof.Proof.Gen.ReferenceIdeal.Run

noncomputable section

namespace Cert.ReferenceIdeal.RefRead

open Cert.ReferenceIdeal Cert.ReferenceIdeal.Gen Cert.ReferenceIdeal.Value Idealize.ShloMosaic Idealize.ShloMosaic.TcCoe Idealize.ShloMosaic.StableHlo

variable {F : FTy → Type} [FloatOps F]

/-- The third propagated layer: the graph's weighted neighbour sums of the second layer. -/
def thirdLayer (V0 : Valuation τ sig (Elt F)) : (⟨S140000x128, .f32⟩ : BufTy).Contents (Elt F) :=
  Host.scatterAdd scatter_S140000x128_S2000000x1_S2000000x128_1_0_0_1 (broadcastInDim S140000x128 ![] bcast_S_S140000x128 (constant S_ .f32 0x00000000#32)) (broadcastInDim S2000000x1 ![0] bcast_S2000000_S2000000x1_0 (res_main_v2 V0)) (mulf (broadcastInDim S2000000x128 ![0, 1] bcast_S2000000x1_S2000000x128_0_1 (broadcastInDim S2000000x1 ![0] bcast_S2000000_S2000000x1_0 (V0 (Proc.devRef .tc main_arg2)))) (Host.gather gather_S140000x128_S2000000x1_S2000000x128_1_0_n_n_0_1_1128 (res_main_v33 V0) (broadcastInDim S2000000x1 ![0] bcast_S2000000_S2000000x1_0 (select (cmpi .slt (res_main_v5 V0) (broadcastInDim S2000000 ![] bcast_S_S2000000 (constantI S_ 32 0#32))) (addi (res_main_v5 V0) (broadcastInDim S2000000 ![] bcast_S_S2000000 (constantI S_ 32 140000#32))) (res_main_v5 V0)))))

/-- The pooled table's rows of the batch's users. -/
def userRows (V0 : Valuation τ sig (Elt F)) : (⟨S8192x128, .f32⟩ : BufTy).Contents (Elt F) := res_main_v59 V0

/-- The pooled table's rows of the batch's positive items. -/
def posRows (V0 : Valuation τ sig (Elt F)) : (⟨S8192x128, .f32⟩ : BufTy).Contents (Elt F) :=
  Host.gather gather_S40000x128_S8192x1_S8192x128_1_0_n_n_0_1_1128 (res_main_v52 V0) (broadcastInDim S8192x1 ![0] bcast_S8192_S8192x1_0 (select (cmpi .slt (V0 (Proc.devRef .tc main_arg6)) (broadcastInDim S8192 ![] bcast_S_S8192 (constantI S_ 32 0#32))) (addi (V0 (Proc.devRef .tc main_arg6)) (broadcastInDim S8192 ![] bcast_S_S8192 (constantI S_ 32 40000#32))) (V0 (Proc.devRef .tc main_arg6))))

/-- The pooled table's rows of the batch's negative items. -/
def negRows (V0 : Valuation τ sig (Elt F)) : (⟨S8192x128, .f32⟩ : BufTy).Contents (Elt F) :=
  Host.gather gather_S40000x128_S8192x1_S8192x128_1_0_n_n_0_1_1128 (res_main_v52 V0) (broadcastInDim S8192x1 ![0] bcast_S8192_S8192x1_0 (select (cmpi .slt (V0 (Proc.devRef .tc main_arg7)) (broadcastInDim S8192 ![] bcast_S_S8192 (constantI S_ 32 0#32))) (addi (V0 (Proc.devRef .tc main_arg7)) (broadcastInDim S8192 ![] bcast_S_S8192 (constantI S_ 32 40000#32))) (V0 (Proc.devRef .tc main_arg7))))

/-- The pooled table's rows of the sampled users. -/
def sampledUserRows (V0 : Valuation τ sig (Elt F)) : (⟨S16384x128, .f32⟩ : BufTy).Contents (Elt F) :=
  Host.gather gather_S100000x128_S16384x1_S16384x128_1_0_n_n_0_1_1128 (res_main_v51 V0) (broadcastInDim S16384x1 ![0] bcast_S16384_S16384x1_0 (select (cmpi .slt (V0 (Proc.devRef .tc main_arg8)) (broadcastInDim S16384 ![] bcast_S_S16384 (constantI S_ 32 0#32))) (addi (V0 (Proc.devRef .tc main_arg8)) (broadcastInDim S16384 ![] bcast_S_S16384 (constantI S_ 32 100000#32))) (V0 (Proc.devRef .tc main_arg8))))

/-- The pooled table's rows of the sampled items. -/
def sampledItemRows (V0 : Valuation τ sig (Elt F)) : (⟨S16384x128, .f32⟩ : BufTy).Contents (Elt F) :=
  Host.gather gather_S40000x128_S16384x1_S16384x128_1_0_n_n_0_1_1128 (res_main_v52 V0) (broadcastInDim S16384x1 ![0] bcast_S16384_S16384x1_0 (select (cmpi .slt (V0 (Proc.devRef .tc main_arg9)) (broadcastInDim S16384 ![] bcast_S_S16384 (constantI S_ 32 0#32))) (addi (V0 (Proc.devRef .tc main_arg9)) (broadcastInDim S16384 ![] bcast_S_S16384 (constantI S_ 32 40000#32))) (V0 (Proc.devRef .tc main_arg9))))

/-- The pooled table is the four layer tables summed and divided by four. -/
theorem pooled_eq (V0 : Valuation τ sig (Elt F)) :
    res_main_v50 V0 = Host.divf (addf (addf (addf (res_main_v6 V0) (res_main_v19 V0)) (res_main_v33 V0)) (thirdLayer V0))
      (broadcastInDim S140000x128 ![] bcast_S_S140000x128 (constant S_ .f32 0x40800000#32)) := rfl

end Cert.ReferenceIdeal.RefRead

end
-- ==== Proof.LossSpec.lean ====
/-
  Two losses of a graph recommender, as functions of five small tables of embedding rows.

  Rows are scored by the inner product of two 128-wide rows; a score z is turned into a probability by the logistic
  function 1 / (1 + e^(-z)). Over a batch of 8192 (user, positive item, negative item) triples the first loss is the
  binary cross-entropy of the 16384 predictions (label 1 for a positive pair, 0 for a negative one); the second mixes the
  mean prediction, the mean prediction over 16384 sampled (user, item) pairs, and the mean of p * log p.

  The same numbers are written in two arrangements. In the first, the sums over the positive and the negative half are
  taken apart (six sums over 8192 rows), the sampled pairs are summed in two halves of 8192 onto a running total that
  starts at zero, and the cross-entropy is negated before it is divided by the count. In the second, the two halves are
  stacked into tables of 16384 rows, the labels are a stacked vector of ones and zeros that multiplies the logarithms,
  every sum starts from an initial zero, and the cross-entropy is divided by the count before it is negated. All values
  are extended reals, with the conventions of the exact float operations (0 * x = 0 for every x, x / c = x * (1/c) for a
  real c that is not 0).
-/
import Idealize.ShloMosaic.PureOps.Ideal
import Idealize.ShloMosaic.Lib.ValueIdx

noncomputable section

namespace Cert.GraphLoss

open Idealize.ShloMosaic

/-- A matrix given on two-coordinate indices, as a function of its row and its column. -/
def rows {a b : ℕ} (x : (⟨2, ![a, b]⟩ : Shape).Idx → EReal) : Fin a → Fin b → EReal := fun r k => x (ValueIdx.ix2 r k)

/-- The score of row r: the inner product of the two tables' rows r. -/
def score {n d : ℕ} (a b : Fin n → Fin d → EReal) (r : Fin n) : EReal := ∑ k : Fin d, a r k * b r k

/-- The predicted probability of row r: the logistic function of its score. -/
def prob {n d : ℕ} (a b : Fin n → Fin d → EReal) (r : Fin n) : EReal := Ideal.logistic (score a b r)

/-! ## The first arrangement: halves summed apart -/

/-- The sum over the batch of log p for the positive pairs. -/
def sumLogPos (u p : Fin 8192 → Fin 128 → EReal) : EReal := ∑ r : Fin 8192, Ideal.log (prob u p r)
/-- The sum over the batch of log (1 - p) for the negative pairs. -/
def sumLogOneMinusNeg (u q : Fin 8192 → Fin 128 → EReal) : EReal := ∑ r : Fin 8192, Ideal.log (1 - prob u q r)
/-- The sum of the positive pairs' predictions. -/
def sumPos (u p : Fin 8192 → Fin 128 → EReal) : EReal := ∑ r : Fin 8192, prob u p r
/-- The sum of the negative pairs' predictions. -/
def sumNeg (u q : Fin 8192 → Fin 128 → EReal) : EReal := ∑ r : Fin 8192, prob u q r
/-- The sum of p * log p over the positive pairs. -/
def sumPosLog (u p : Fin 8192 → Fin 128 → EReal) : EReal := ∑ r : Fin 8192, prob u p r * Ideal.log (prob u p r)
/-- The sum of p * log p over the negative pairs. -/
def sumNegLog (u q : Fin 8192 → Fin 128 → EReal) : EReal := ∑ r : Fin 8192, prob u q r * Ideal.log (prob u q r)

/-- Row r of the first half of 16384 rows. -/
def lowRow (r : Fin 8192) : Fin 16384 := ⟨r.val, by omega⟩
/-- Row r of the second half of 16384 rows. -/
def highRow (r : Fin 8192) : Fin 16384 := ⟨8192 + r.val, by omega⟩

/-- The sampled pairs' predictions summed in two halves onto a running total that starts at zero. -/
def accTwoHalves (su si : Fin 16384 → Fin 128 → EReal) : EReal :=
  (0 + ∑ r : Fin 8192, prob su si (lowRow r)) + ∑ r : Fin 8192, prob su si (highRow r)

/-- The cross-entropy, negated and then divided by the count n. -/
def bceK (u p q : Fin 8192 → Fin 128 → EReal) (n : EReal) : EReal :=
  Ideal.div (-(sumLogPos u p + sumLogOneMinusNeg u q)) n
/-- The mean prediction over the 2 * 8192 pairs. -/
def predAvgK (u p q : Fin 8192 → Fin 128 → EReal) (n : EReal) : EReal := Ideal.div (sumPos u p + sumNeg u q) n
/-- The mean of p * log p over the 2 * 8192 pairs. -/
def meanPredLogK (u p q : Fin 8192 → Fin 128 → EReal) (n : EReal) : EReal := Ideal.div (sumPosLog u p + sumNegLog u q) n
/-- The mean prediction over the sampled pairs. -/
def predUlAvgK (su si : Fin 16384 → Fin 128 → EReal) (n : EReal) : EReal := Ideal.div (accTwoHalves su si) n

/-- The second loss from the three means: w1 * (-(a) * log b - (1 - a) * log (1 - b)) + w2 * c. -/
def infoOf (w1 w2 a b c : EReal) : EReal := w1 * ((-a) * Ideal.log b - (1 - a) * Ideal.log (1 - b)) + w2 * c

/-! ## The second arrangement: halves stacked -/

/-- Two tables of 8192 rows stacked into one of 16384. -/
def stack {α : Type} (a b : Fin 8192 → α) : Fin 16384 → α :=
  fun j => if h : j.val < 8192 then a ⟨j.val, h⟩ else b ⟨j.val - 8192, by omega⟩

/-- The prediction of stacked row j, the logistic function written out, its score summed from an initial zero. -/
def predR (u p q : Fin 8192 → Fin 128 → EReal) (j : Fin 16384) : EReal :=
  Ideal.div 1 (1 + Ideal.exp (-(0 + ∑ k : Fin 128, stack u u j k * stack p q j k)))
/-- The labels: one for the first half, zero for the second. -/
def labelR : Fin 16384 → EReal := stack (fun _ => 1) (fun _ => 0)
/-- The cross-entropy, divided by the count and then negated. -/
def bceR (u p q : Fin 8192 → Fin 128 → EReal) (n : EReal) : EReal :=
  -(Ideal.div (0 + ∑ j : Fin 16384, (labelR j * Ideal.log (predR u p q j) + (1 - labelR j) * Ideal.log (1 - predR u p q j))) n)
/-- The mean prediction. -/
def predAvgR (u p q : Fin 8192 → Fin 128 → EReal) (n : EReal) : EReal := Ideal.div (0 + ∑ j : Fin 16384, predR u p q j) n
/-- The mean of p * log p. -/
def meanPredLogR (u p q : Fin 8192 → Fin 128 → EReal) (n : EReal) : EReal :=
  Ideal.div (0 + ∑ j : Fin 16384, predR u p q j * Ideal.log (predR u p q j)) n
/-- The prediction of sampled pair j, the logistic function written out. -/
def predUlR (su si : Fin 16384 → Fin 128 → EReal) (j : Fin 16384) : EReal :=
  Ideal.div 1 (1 + Ideal.exp (-(0 + ∑ k : Fin 128, su j k * si j k)))
/-- The mean prediction over the sampled pairs. -/
def predUlAvgR (su si : Fin 16384 → Fin 128 → EReal) (n : EReal) : EReal := Ideal.div (0 + ∑ j : Fin 16384, predUlR su si j) n

/-! ## The mean of four layer tables, entry by entry -/

/-- The four entries summed left to right, times a quarter. -/
def poolK (a0 a1 a2 a3 : EReal) : EReal := (((a0 + a1) + a2) + a3) * ((1 / 4 : ℝ) : EReal)
/-- The four entries summed left to right, divided by four. -/
def poolR (a0 a1 a2 a3 : EReal) : EReal := Ideal.div (((a0 + a1) + a2) + a3) ((4 : ℝ) : EReal)

/-! ## The float words that are evaluated -/

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_count : Ideal.ofBits .f32 0x46800000#32 = ((16384 : ℝ) : EReal) := by
  simp [Ideal.ofBits, Ideal.ieee, -EReal.coe_mul]; norm_num

end Cert.GraphLoss

end
-- ==== Proof.LossLaws.lean ====
/-
  The two arrangements of the graph recommender's losses give the same extended reals.

  Stacked row r of the first half carries the (user, positive item) pair r, and stacked row 8192 + r the
  (user, negative item) pair r, so a sum over the 16384 stacked rows is the sum over the first half plus the
  sum over the second half. The labels are one on the first half and zero on the second, which leaves log p
  on the first half and log (1 - p) on the second. Dividing by the real count is multiplying by its
  reciprocal, and a sign moves through a product on every extended real.
-/
import proofs.«100895_j67216238183228_1_alg».proof.Proof.LossSpec
import Mathlib.Data.EReal.Operations
import Mathlib.Algebra.BigOperators.Fin

noncomputable section

namespace Cert.GraphLoss

open Idealize.ShloMosaic

/-- The logistic function is 1 / (1 + e^(-z)), by definition. -/
theorem logistic_eq (z : EReal) : Ideal.logistic z = Ideal.div 1 (1 + Ideal.exp (-z)) := rfl

/-- Multiplying by a quarter is dividing by four, on every extended real. -/
theorem poolK_eq_poolR (a0 a1 a2 a3 : EReal) : poolK a0 a1 a2 a3 = poolR a0 a1 a2 a3 := by
  unfold poolK poolR
  rw [Ideal.div_coe (by norm_num : (4 : ℝ) ≠ 0)]

/-! ## Stacked rows -/

/-- Row r of the first half of a stacked table is row r of the first table. -/
theorem stack_low {α : Type} (a b : Fin 8192 → α) (r : Fin 8192) : stack a b (lowRow r) = a r := by
  unfold stack lowRow
  rw [dif_pos r.isLt]

/-- Row 8192 + r of a stacked table is row r of the second table. -/
theorem stack_high {α : Type} (a b : Fin 8192 → α) (r : Fin 8192) : stack a b (highRow r) = b r := by
  unfold stack highRow
  have h : ¬ (8192 + r.val < 8192) := by omega
  rw [dif_neg h]
  exact congrArg b (Fin.ext (by show 8192 + r.val - 8192 = r.val; omega))

/-- The label of a first-half row is one. -/
theorem labelR_low (r : Fin 8192) : labelR (lowRow r) = 1 := by
  unfold labelR
  rw [stack_low]

/-- The label of a second-half row is zero. -/
theorem labelR_high (r : Fin 8192) : labelR (highRow r) = 0 := by
  unfold labelR
  rw [stack_high]

/-- The stacked prediction on the first half is the probability of the positive pair:
    the score's initial zero is absorbed, and the logistic function is 1 / (1 + e^(-z)). -/
theorem predR_low (u p q : Fin 8192 → Fin 128 → EReal) (r : Fin 8192) :
    predR u p q (lowRow r) = prob u p r := by
  unfold predR prob score
  rw [logistic_eq, zero_add]
  simp only [stack_low]

/-- The stacked prediction on the second half is the probability of the negative pair. -/
theorem predR_high (u p q : Fin 8192 → Fin 128 → EReal) (r : Fin 8192) :
    predR u p q (highRow r) = prob u q r := by
  unfold predR prob score
  rw [logistic_eq, zero_add]
  simp only [stack_high]

/-- A sum over 16384 rows is the sum over the first 8192 plus the sum over the last 8192. -/
theorem sum_halves {M : Type} [AddCommMonoid M] (f : Fin 16384 → M) :
    ∑ j : Fin 16384, f j = (∑ r : Fin 8192, f (lowRow r)) + ∑ r : Fin 8192, f (highRow r) := by
  have h := Fin.sum_univ_add (M := M) (a := 8192) (b := 8192) (fun i => f i)
  exact h

/-! ## The three means over the stacked batch -/

private theorem one_sub_one : (1 : EReal) - 1 = 0 := by
  rw [← EReal.coe_one, ← EReal.coe_sub, sub_self, EReal.coe_zero]

/-- Negating then dividing by 16384 is dividing then negating; with label one the summand is log p,
    with label zero it is log (1 - p). -/
theorem bceK_eq_bceR (u p q : Fin 8192 → Fin 128 → EReal) :
    bceK u p q ((16384 : ℝ) : EReal) = bceR u p q ((16384 : ℝ) : EReal) := by
  unfold bceK bceR sumLogPos sumLogOneMinusNeg
  rw [Ideal.div_coe (by norm_num : (16384 : ℝ) ≠ 0), Ideal.div_coe (by norm_num : (16384 : ℝ) ≠ 0),
    EReal.neg_mul, zero_add, sum_halves]
  simp only [labelR_low, labelR_high, predR_low, predR_high, one_mul, zero_mul, one_sub_one, sub_zero,
    add_zero, zero_add]

theorem predAvgK_eq_predAvgR (u p q : Fin 8192 → Fin 128 → EReal) (n : EReal) :
    predAvgK u p q n = predAvgR u p q n := by
  unfold predAvgK predAvgR sumPos sumNeg
  rw [zero_add, sum_halves]
  simp only [predR_low, predR_high]

theorem meanPredLogK_eq_meanPredLogR (u p q : Fin 8192 → Fin 128 → EReal) (n : EReal) :
    meanPredLogK u p q n = meanPredLogR u p q n := by
  unfold meanPredLogK meanPredLogR sumPosLog sumNegLog
  rw [zero_add, sum_halves]
  simp only [predR_low, predR_high]

/-- The sampled pairs: the running total's initial zero is absorbed and the two halves make up the whole sum. -/
theorem predUlAvgK_eq_predUlAvgR (su si : Fin 16384 → Fin 128 → EReal) (n : EReal) :
    predUlAvgK su si n = predUlAvgR su si n := by
  unfold predUlAvgK predUlAvgR accTwoHalves
  rw [zero_add, zero_add, sum_halves]
  unfold predUlR prob score
  simp only [logistic_eq, zero_add]

end Cert.GraphLoss

end
-- ==== Proof.PoolValue.lean ====
/-
  What the pooling region leaves in its output table.

  The region walks over the 140000 rows in 70 blocks of 2000 rows, all 128 columns. At each block it reads the same block
  of the four layer tables, adds the four entries left to right and multiplies by a quarter, and stores the block. The
  blocks tile the table, so after the region every entry of the output table is that mean of the four entries at the
  same index.
-/
import proofs.«100895_j67216238183228_1_alg».proof.Proof.FrameKI
import proofs.«100895_j67216238183228_1_alg».proof.Proof.LossSpec
import Idealize.ShloMosaic.Lib.Pipeline.Value

set_option maxRecDepth 16384

noncomputable section

namespace Cert.KernelIdeal.PoolValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block rectangle, as a constant function. -/
theorem zeroOffsets : (![0, 0] : Fin 2 → Nat) = fun _ => 0 := funext fun a => by fin_cases a <;> rfl

/-- The mean of four tables, entry by entry: the four entries summed left to right, times a quarter. -/
abbrev pooled (a0 a1 a2 a3 : S140000x128.Idx → EReal) : S140000x128.Idx → EReal :=
  fun i => Cert.GraphLoss.poolK (a0 i) (a1 i) (a2 i) (a3 i)

/-- What one block stores, entry by entry: the four loaded entries summed left to right, times a quarter. -/
theorem stored_apply (x0 x1 x2 x3 : Vec Ideal S2000x128 .f32) (j : S2000x128.Idx) :
    k0_pay1 (F := Ideal) x0 x1 x2 x3 j = Cert.GraphLoss.poolK (x0 j) (x1 j) (x2 j) (x3 j) := by
  unfold k0_pay1
  simp only [shapeCast_self]
  show (((x0 j + x1 j) + x2 j) + x3 j) * Ideal.ofBits .f32 0x3E800000#32 = _
  rw [Cert.GraphLoss.ofBits_quarter]
  rfl

/-- The index maps over the grid: at point t every table's block is block t of the rows and block 0 of the columns. -/
theorem block_index : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) = t.val ∧ win0_4.index t (1 : Fin 2) = 0 :=
  (by decide +kernel : ∀ t : Fin grid0.N, _)

/-- What point t writes back is block t of the entrywise mean of the four tables as the region finds them. -/
theorem flushed_eq (c : Dev nD) (t : Fin cfg0.N) :
    (dat0 (F := Ideal) V c).flushed 4 t
      = ((cfg0.win 4).blk t).view.read (Elt Ideal) (pooled (V c main_v6) (V c main_v19) (V c main_v32) (V c main_v45)) := by
  show (cfg0.win 4).cut (grid0.coords t) ((dat0 V c).after 4 t) = _
  rw [after0_4]
  unfold out0_4
  rw [View.canon_unit_zero zeroOffsets]
  simp only [View.ld_unit_zero (S := S2000x128) zeroOffsets]
  obtain ⟨e00, e01, e10, e11, e20, e21, e30, e31, -, -⟩ := block_index t
  funext j
  refine (stored_apply (iblk0 V c 0 t) (iblk0 V c 1 t) (iblk0 V c 2 t) (iblk0 V c 3 t) j).trans ?_
  show Cert.GraphLoss.poolK (V c main_v6 (((cfg0.win 0).blk t).view.emb j)) (V c main_v19 (((cfg0.win 1).blk t).view.emb j))
      (V c main_v32 (((cfg0.win 2).blk t).view.emb j)) (V c main_v45 (((cfg0.win 3).blk t).view.emb j))
    = Cert.GraphLoss.poolK (V c main_v6 (((cfg0.win 4).blk t).view.emb j)) (V c main_v19 (((cfg0.win 4).blk t).view.emb j))
      (V c main_v32 (((cfg0.win 4).blk t).view.emb j)) (V c main_v45 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 2000 + 1 * (j 0).val = win0_4.index t (0 : Fin 2) * 2000 + 1 * (j 0).val; omega
    | ⟨1, _⟩ => show win0_2.index t (1 : Fin 2) * 128 + 1 * (j 1).val = win0_4.index t (1 : Fin 2) * 128 + 1 * (j 1).val; omega
  have h3 : ((cfg0.win 3).blk t).view.emb j = ((cfg0.win 4).blk t).view.emb j := by
    funext a; apply Fin.ext
    match a with
    | ⟨0, _⟩ => show win0_3.index t (0 : Fin 2) * 2000 + 1 * (j 0).val = win0_4.index t (0 : Fin 2) * 2000 + 1 * (j 0).val; omega
    | ⟨1, _⟩ => show win0_3.index t (1 : Fin 2) * 128 + 1 * (j 1).val = win0_4.index t (1 : Fin 2) * 128 + 1 * (j 1).val; omega
  rw [h0, h1, h2, h3]

/-- An index of the table is in point t's block iff each coordinate is in the block's range on its axis. -/
theorem mem_rowBlock (t : Fin cfg0.N) (i : S140000x128.Idx) :
    i ∈ ((cfg0.win 4).blk t).view.set
      ↔ ∀ a : Fin 2, win0_4.index t a * S2000x128.size a ≤ (i a).val ∧ (i a).val < win0_4.index t a * S2000x128.size a + S2000x128.size a := by
  show i ∈ ((View.whole main_v46).slice (win0_4.rect t)).set ↔ _
  rw [View.set_slice_whole, Rect.mem_set_unit]
  exact Iff.rfl

/-- The blocks tile the table: row r is in the block of point r / 2000. -/
theorem covered (i : S140000x128.Idx) :
    ∃ t : Fin cfg0.N, (cfg0.win 4).flush t = true ∧ i ∈ ((cfg0.win 4).blk t).view.set := by
  have hi0 : (i 0).val < 140000 := (i 0).isLt
  have hi1 : (i 1).val < 128 := (i 1).isLt
  have hN : cfg0.N = 70 := N_0
  let t : Fin cfg0.N := ⟨(i 0).val / 2000, by rw [hN]; omega⟩
  obtain ⟨-, -, -, -, -, -, -, -, q0, q1⟩ := block_index t
  have ht : t.val = (i 0).val / 2000 := rfl
  refine ⟨t, flush0_4 t, ?_⟩
  rw [mem_rowBlock]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- The output table after the region: at every index the mean of the four layer tables' entries as the region finds them. -/
theorem final (c : Dev nD) :
    (dat0 (F := Ideal) V c).arrAt 4 cfg0.N
      = fun i => Cert.GraphLoss.poolK (V c main_v6 i) (V c main_v19 i) (V c main_v32 i) (V c main_v45 i) :=
  (dat0 V c).arrAt_eq_of_cover 4 (pooled (V c main_v6) (V c main_v19) (V c main_v32) (V c main_v45))
    (fun t _ => flushed_eq V c t) covered

end Cert.KernelIdeal.PoolValue

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibColumnSum.lean ====
/-
  A sum along axis 0 of an [n, B] vector, read at a column.

  A kernel that keeps channels down the rows of a tile and samples across its columns reduces along axis 0: the
  result at column q is the sum of the n entries of that column. On the extended reals the reduction from the
  zero accumulator is that plain sum; the library's index of the reduced axis put back into the result index is
  the entry (j, q). Every extent is generic.
-/
import Idealize.ShloMosaic.PureOps.Ideal.Laws
import Idealize.ShloMosaic.Lib.ValueIdx

namespace ColumnSum

open Idealize.ShloMosaic Idealize.ShloMosaic.ValueIdx

variable {n B : ℕ}

/-- Column q with the channel coordinate j put back on axis 0 is the entry (j, q). -/
theorem lift_col (h : Shape.Reduces ⟨2, ![n, B]⟩ [0] ⟨1, ![B]⟩) (q : Fin B) (j : Fin n) :
    h.lift (ix1 q) j = ix2 j q := by
  funext d
  apply Fin.ext
  match d with
  | ⟨0, h0⟩ =>
    show h.liftVal (ix1 q) j.val ⟨0, h0⟩ = j.val
    unfold Shape.Reduces.liftVal
    split
    · rfl
    · next hc => exact absurd rfl hc
  | ⟨1, h1⟩ =>
    show h.liftVal (ix1 q) j.val ⟨1, h1⟩ = q.val
    unfold Shape.Reduces.liftVal
    split
    · next hc => exact absurd hc Nat.one_ne_zero
    · split
      · next hlt => exact absurd hlt (Nat.not_lt_zero _)
      · rfl

/-- A sum along axis 0 from the zero accumulator, at column q: the sum of the column's n entries. -/
theorem colSum_apply (v : FVec Ideal ⟨2, ![n, B]⟩ .f32) (h : Shape.Reduces ⟨2, ![n, B]⟩ [0] ⟨1, ![B]⟩)
    (hφ : FKind.Formats .f32) (hacc : (0x00000000#32 : BitVec 32) = FKind.add.neutral .f32 hφ) (q : Fin B) :
    multiReduction .add [0] ⟨1, ![B]⟩ v 0x00000000#32 h hφ hacc (ix1 q) = ∑ j : Fin n, v (ix2 j q) := by
  refine (Ideal.multiReduction_add_single v 0x00000000#32 h hφ hacc (ix1 q)).trans ?_
  exact Finset.sum_congr rfl fun j _ => congrArg v (lift_col h q j)

end ColumnSum
-- ==== Proof.LibEndToEnd.lean ====
/-
  Arrays laid end to end along one axis, read at an entry.

  When `N` pieces of ONE shape, each of extent `c` along the joined axis, are laid end to end, position `k` on that axis
  falls in piece `k / c` at its own position `k % c`; the other coordinates are unchanged. This module states that for the
  last axis of a matrix (`[a, c]` pieces into `[a, w]`) and of a rank-3 array (`[a, b, c]` pieces into `[a, b, w]`), with the
  pieces given as a family over `Fin N`, and then for the literal lists of two, three and five pieces. It also reads the
  two-piece join along the MIDDLE axis of a rank-3 array — what a rotation of that axis by a fixed amount is made of: the
  first `b₁` positions come from the first piece, the rest from the second at the position less `b₁`.
  Every extent is generic; the entries may be of any type.
-/
import Idealize.ShloMosaic.Lib.ValueIdx
import Idealize.ShloMosaic.Lib.Pipeline.Value

namespace EndToEnd

open Idealize.ShloMosaic Idealize.ShloMosaic.ValueIdx

variable {α : Type}

/-- The piece-and-position reading of a position `k` on the joined axis, against pieces of extent `c`. -/
theorem div_lt {c w N : ℕ} (hw : w = N * c) (hc : 0 < c) (k : Fin w) : k.val / c < N :=
  (Nat.div_lt_iff_lt_mul hc).2 (hw ▸ k.isLt)

/-! ## Along the last axis of a matrix -/

/-- `N` matrices `[a, c]` joined along axis 1 into `[a, w]`: at `(p, k)`, piece `k / c` at `(p, k % c)`. -/
theorem cols_apply {a c w N : ℕ} (f : Fin N → ((⟨2, ![a, c]⟩ : Shape).Idx → α))
    (h : Shape.Concatenates ((List.ofFn fun n : Fin N => (⟨⟨2, ![a, c]⟩, f n⟩ : (s : Shape) × (s.Idx → α))).map (·.1))
      ⟨2, ![a, w]⟩ (1 : Fin 2))
    (hc : 0 < c) (p : Fin a) (k : Fin w) (n : Fin N) (hn : k.val / c = n.val) :
    concatenate ⟨2, ![a, w]⟩ (1 : Fin 2) (List.ofFn fun n : Fin N => (⟨⟨2, ![a, c]⟩, f n⟩ : (s : Shape) × (s.Idx → α))) h
        (ix2 p k)
      = f n (ix2 p ⟨k.val % c, Nat.mod_lt _ hc⟩) := by
  refine concatenate_ofFn_apply (t := ⟨2, ![a, w]⟩) (s₁ := ⟨2, ![a, c]⟩) (1 : Fin 2) f h rfl c rfl (ix2 p k) n hn
    (ix2 p ⟨k.val % c, Nat.mod_lt _ hc⟩) rfl fun b hb => ?_
  match b with
  | ⟨0, _⟩ => rfl
  | ⟨1, _⟩ => exact absurd rfl hb

/-! ## Along the last axis of a rank-3 array -/

/-- `N` arrays `[a, b, c]` joined along axis 2 into `[a, b, w]`: at `(p, r, k)`, piece `k / c` at `(p, r, k % c)`. -/
theorem last3_apply {a b c w N : ℕ} (f : Fin N → ((⟨3, ![a, b, c]⟩ : Shape).Idx → α))
    (h : Shape.Concatenates ((List.ofFn fun n : Fin N => (⟨⟨3, ![a, b, c]⟩, f n⟩ : (s : Shape) × (s.Idx → α))).map (·.1))
      ⟨3, ![a, b, w]⟩ (2 : Fin 3))
    (hc : 0 < c) (p : Fin a) (r : Fin b) (k : Fin w) (n : Fin N) (hn : k.val / c = n.val) :
    concatenate ⟨3, ![a, b, w]⟩ (2 : Fin 3) (List.ofFn fun n : Fin N => (⟨⟨3, ![a, b, c]⟩, f n⟩ : (s : Shape) × (s.Idx → α))) h
        (ix3 p r k)
      = f n (ix3 p r ⟨k.val % c, Nat.mod_lt _ hc⟩) := by
  refine concatenate_ofFn_apply (t := ⟨3, ![a, b, w]⟩) (s₁ := ⟨3, ![a, b, c]⟩) (2 : Fin 3) f h rfl c rfl (ix3 p r k) n hn
    (ix3 p r ⟨k.val % c, Nat.mod_lt _ hc⟩) rfl fun d hd => ?_
  match d with
  | ⟨0, _⟩ => rfl
  | ⟨1, _⟩ => rfl
  | ⟨2, _⟩ => exact absurd rfl hd

/-! ## Two pieces along the middle axis of a rank-3 array -/

/-- `[a, b₁, c]` and `[a, b₂, c]` joined along axis 1 into `[a, b, c]`, at a middle position inside the first piece. -/
theorem mid_left {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : r.val < b₁) :
    concatenate ⟨3, ![a, b, c]⟩ (1 : Fin 3) [⟨⟨3, ![a, b₁, c]⟩, x₁⟩, ⟨⟨3, ![a, b₂, c]⟩, x₂⟩] h (ix3 p r q)
      = x₁ (ix3 p ⟨r.val, hr⟩ q) := by
  refine concatenate_pair_apply_left (t := ⟨3, ![a, b, c]⟩) (s₁ := ⟨3, ![a, b₁, c]⟩) (s₂ := ⟨3, ![a, b₂, c]⟩) (1 : Fin 3) x₁ x₂ h
    (ix3 p r q) rfl (ix3 p ⟨r.val, hr⟩ q) fun d => ?_
  match d with
  | ⟨0, _⟩ => rfl
  | ⟨1, _⟩ => rfl
  | ⟨2, _⟩ => rfl

/-- The same at a middle position past the first piece: the second piece at the position less `b₁`. -/
theorem mid_right {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : b₁ ≤ r.val) (hr₂ : r.val - b₁ < b₂) :
    concatenate ⟨3, ![a, b, c]⟩ (1 : Fin 3) [⟨⟨3, ![a, b₁, c]⟩, x₁⟩, ⟨⟨3, ![a, b₂, c]⟩, x₂⟩] h (ix3 p r q)
      = x₂ (ix3 p ⟨r.val - b₁, hr₂⟩ q) := by
  refine concatenate_pair_apply_right (t := ⟨3, ![a, b, c]⟩) (s₁ := ⟨3, ![a, b₁, c]⟩) (s₂ := ⟨3, ![a, b₂, c]⟩) (1 : Fin 3) x₁ x₂ h
    (ix3 p r q) rfl rfl (ix3 p ⟨r.val - b₁, hr₂⟩ q) (fun d hd => ?_) ?_
  · match d with
    | ⟨0, _⟩ => rfl
    | ⟨1, _⟩ => exact absurd rfl hd
    | ⟨2, _⟩ => rfl
  · show r.val - b₁ + b₁ = r.val
    omega

end EndToEnd
-- ==== Proof.SumsValue.lean ====
/-
  What the batch kernel leaves in its output array of shape [1, 6]: six sums over the 8192 rows of a batch.

  The kernel reads three tables of 8192 rows of 128 entries: the user rows, the positive item rows and the negative item
  rows. The score of row r against the positive (negative) table is the sum over the 128 columns of the entrywise
  product; the scores are kept as a column [8192, 1]. The logistic function of a score is a predicted probability p
  (positive table) or q (negative table). Six columns are formed entry by entry, log p, log (1 - q), p, q, p * log p and
  q * log q; each is summed down its 8192 rows from a zero accumulator, and the six totals are laid side by side into
  the row [1, 6]. Read at column j, the row is the j-th total, and each total is the plain sum over the rows of the
  entry's formula: the six sums of the loss's first arrangement.

  The kernel runs at a single grid point whose blocks are the whole arrays, so the output array after the run is that
  row of the three input arrays as the region finds them.
-/
import proofs.«100895_j67216238183228_1_alg».proof.Proof.FrameKI
import proofs.«100895_j67216238183228_1_alg».proof.Proof.LossSpec
import proofs.«100895_j67216238183228_1_alg».proof.Proof.LibRowOps
import proofs.«100895_j67216238183228_1_alg».proof.Proof.LibColumnSum
import proofs.«100895_j67216238183228_1_alg».proof.Proof.LibEndToEnd
import Idealize.ShloMosaic.Lib.Pipeline.Value
import Idealize.ShloMosaic.Lib.ValueLayout

set_option maxRecDepth 16384

noncomputable section

namespace Cert.KernelIdeal.SumsValue

open Cert.KernelIdeal Cert.KernelIdeal.Gen Cert.GraphLoss Idealize.ShloMosaic Idealize.ShloMosaic.ValueIdx
open Idealize.ShloMosaic.TcCoe Idealize.SL.Sem
open Idealize.ShloMosaic.Pipeline (Dat)

/-- The zero offsets of a whole-array access, as a constant function. -/
theorem hz : (![0, 0] : Fin 2 → Nat) = fun _ => 0 := funext fun a => by fin_cases a <;> rfl

/-! ## The column of scores -/

/-- The scores of the rows of two tables as a column [8192, 1]: the entrywise product summed along each row from a
    zero accumulator, the [8192] result recast to a column. -/
def scoreCol (x y : Vec Ideal S8192x128 .f32) : FVec Ideal S8192x1 .f32 :=
  shapeCast S8192x1
    (multiReduction .add [1] S8192
      (mulf (shapeCast S8192x128 x shapeCasts_S8192x128_S8192x128) (shapeCast S8192x128 y shapeCasts_S8192x128_S8192x128))
      0x00000000#32 reduces_S8192x128_S8192 (.inl rfl) rfl)
    shapeCasts_S8192_S8192x1

/-- The column of scores at row r is the inner product of the two tables' rows r. -/
theorem scoreCol_apply (x y : Vec Ideal S8192x128 .f32) (r : Fin 8192) (u : Fin 1) :
    scoreCol x y (ix2 r u) = score (rows x) (rows y) r := by
  unfold scoreCol
  refine (Gcn.Lib.shapeCast_a_a1_apply _ shapeCasts_S8192_S8192x1 r u).trans ?_
  refine (Gcn.Lib.rowSum_apply _ reduces_S8192x128_S8192 (.inl rfl) rfl r).trans ?_
  rw [shapeCast_self, shapeCast_self]
  rfl

/-! ## The total of a column -/

/-- A column [8192, 1] summed down its rows from a zero accumulator, the [1] result recast to [1, 1]. -/
def total (col : FVec Ideal S8192x1 .f32) : FVec Ideal S1x1 .f32 :=
  shapeCast S1x1 (multiReduction .add [0] S1 col 0x00000000#32 reduces_S8192x1_S1 (.inl rfl) rfl) shapeCasts_S1_S1x1

/-- The total of a column is the plain sum of its 8192 entries. -/
theorem total_apply (col : FVec Ideal S8192x1 .f32) :
    total col (ix2 (0 : Fin 1) (0 : Fin 1)) = ∑ r : Fin 8192, col (ix2 r (0 : Fin 1)) := by
  unfold total
  refine (Gcn.Lib.shapeCast_a_a1_apply _ shapeCasts_S1_S1x1 (0 : Fin 1) (0 : Fin 1)).trans ?_
  exact ColumnSum.colSum_apply col reduces_S8192x1_S1 (.inl rfl) rfl (0 : Fin 1)

/-! ## The row of six totals -/

/-- Six [1, 1] pieces laid side by side along axis 1 into the row [1, 6]. -/
def row6 (p0 p1 p2 p3 p4 p5 : FVec Ideal S1x1 .f32) : FVec Ideal S1x6 .f32 :=
  concatenate S1x6 1 [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1

/-- Column 0 of the row is piece 0. -/
theorem row6_at_0 (p0 p1 p2 p3 p4 p5 : FVec Ideal S1x1 .f32) :
    row6 p0 p1 p2 p3 p4 p5 (ix2 (0 : Fin 1) (0 : Fin 6)) = p0 (ix2 (0 : Fin 1) (0 : Fin 1)) :=
  concatenate_apply_piece (t := S1x6) (1 : Fin 2)
    [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1
    (ix2 (0 : Fin 1) (0 : Fin 6)) 0 (by show 0 < 6; omega) S1x1 p0 rfl rfl 0 (by rfl) (ix2 (0 : Fin 1) (0 : Fin 1))
    (fun b hb => by
      match b with
      | ⟨0, _⟩ => rfl
      | ⟨1, _⟩ => exact absurd rfl hb)
    (by rfl)

/-- Column 1 of the row is piece 1. -/
theorem row6_at_1 (p0 p1 p2 p3 p4 p5 : FVec Ideal S1x1 .f32) :
    row6 p0 p1 p2 p3 p4 p5 (ix2 (0 : Fin 1) (1 : Fin 6)) = p1 (ix2 (0 : Fin 1) (0 : Fin 1)) :=
  concatenate_apply_piece (t := S1x6) (1 : Fin 2)
    [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1
    (ix2 (0 : Fin 1) (1 : Fin 6)) 1 (by show 1 < 6; omega) S1x1 p1 rfl rfl 1 (by rfl) (ix2 (0 : Fin 1) (0 : Fin 1))
    (fun b hb => by
      match b with
      | ⟨0, _⟩ => rfl
      | ⟨1, _⟩ => exact absurd rfl hb)
    (by rfl)

/-- Column 2 of the row is piece 2. -/
theorem row6_at_2 (p0 p1 p2 p3 p4 p5 : FVec Ideal S1x1 .f32) :
    row6 p0 p1 p2 p3 p4 p5 (ix2 (0 : Fin 1) (2 : Fin 6)) = p2 (ix2 (0 : Fin 1) (0 : Fin 1)) :=
  concatenate_apply_piece (t := S1x6) (1 : Fin 2)
    [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1
    (ix2 (0 : Fin 1) (2 : Fin 6)) 2 (by show 2 < 6; omega) S1x1 p2 rfl rfl 2 (by rfl) (ix2 (0 : Fin 1) (0 : Fin 1))
    (fun b hb => by
      match b with
      | ⟨0, _⟩ => rfl
      | ⟨1, _⟩ => exact absurd rfl hb)
    (by rfl)

/-- Column 3 of the row is piece 3. -/
theorem row6_at_3 (p0 p1 p2 p3 p4 p5 : FVec Ideal S1x1 .f32) :
    row6 p0 p1 p2 p3 p4 p5 (ix2 (0 : Fin 1) (3 : Fin 6)) = p3 (ix2 (0 : Fin 1) (0 : Fin 1)) :=
  concatenate_apply_piece (t := S1x6) (1 : Fin 2)
    [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1
    (ix2 (0 : Fin 1) (3 : Fin 6)) 3 (by show 3 < 6; omega) S1x1 p3 rfl rfl 3 (by rfl) (ix2 (0 : Fin 1) (0 : Fin 1))
    (fun b hb => by
      match b with
      | ⟨0, _⟩ => rfl
      | ⟨1, _⟩ => exact absurd rfl hb)
    (by rfl)

/-- Column 4 of the row is piece 4. -/
theorem row6_at_4 (p0 p1 p2 p3 p4 p5 : FVec Ideal S1x1 .f32) :
    row6 p0 p1 p2 p3 p4 p5 (ix2 (0 : Fin 1) (4 : Fin 6)) = p4 (ix2 (0 : Fin 1) (0 : Fin 1)) :=
  concatenate_apply_piece (t := S1x6) (1 : Fin 2)
    [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1
    (ix2 (0 : Fin 1) (4 : Fin 6)) 4 (by show 4 < 6; omega) S1x1 p4 rfl rfl 4 (by rfl) (ix2 (0 : Fin 1) (0 : Fin 1))
    (fun b hb => by
      match b with
      | ⟨0, _⟩ => rfl
      | ⟨1, _⟩ => exact absurd rfl hb)
    (by rfl)

/-- Column 5 of the row is piece 5. -/
theorem row6_at_5 (p0 p1 p2 p3 p4 p5 : FVec Ideal S1x1 .f32) :
    row6 p0 p1 p2 p3 p4 p5 (ix2 (0 : Fin 1) (5 : Fin 6)) = p5 (ix2 (0 : Fin 1) (0 : Fin 1)) :=
  concatenate_apply_piece (t := S1x6) (1 : Fin 2)
    [⟨S1x1, p0⟩, ⟨S1x1, p1⟩, ⟨S1x1, p2⟩, ⟨S1x1, p3⟩, ⟨S1x1, p4⟩, ⟨S1x1, p5⟩]
    concatenates_S1x1_S1x1_S1x1_S1x1_S1x1_S1x1_S1x6_d1
    (ix2 (0 : Fin 1) (5 : Fin 6)) 5 (by show 5 < 6; omega) S1x1 p5 rfl rfl 5 (by rfl) (ix2 (0 : Fin 1) (0 : Fin 1))
    (fun b hb => by
      match b with
      | ⟨0, _⟩ => rfl
      | ⟨1, _⟩ => exact absurd rfl hb)
    (by rfl)

/-! ## The kernel's output as the row of six totals -/

/-- The scalar one spread over a column [8192, 1]. -/
def oneCol : FVec Ideal S8192x1 .f32 := broadcast S8192x1 (Scalar.ofBits (F := Ideal) .f32 0x3F800000#32)

/-- What the body stores, from its three whole-array loads: the row of the six columns' totals, the columns being
    log p, log (1 - q), p, q, p * log p and q * log q for p, q the logistic function of the two columns of scores. -/
theorem out_eq (x0 x1 x2 : Vec Ideal S8192x128 .f32) :
    out1_3 (F := Ideal) x0 x1 x2
      = row6 (total (log (logistic (scoreCol x0 x1))))
          (total (log (subf oneCol (logistic (scoreCol x0 x2)))))
          (total (logistic (scoreCol x0 x1)))
          (total (logistic (scoreCol x0 x2)))
          (total (mulf (logistic (scoreCol x0 x1)) (log (logistic (scoreCol x0 x1)))))
          (total (mulf (logistic (scoreCol x0 x2)) (log (logistic (scoreCol x0 x2))))) := by
  unfold out1_3
  rw [View.canon_unit_zero hz]
  simp only [View.ld_unit_zero (S := S8192x128) hz]
  rfl

/-- The logistic function of the column of scores, at row r: the predicted probability of row r. -/
theorem prob_apply (x y : Vec Ideal S8192x128 .f32) (r : Fin 8192) (u : Fin 1) :
    logistic (scoreCol x y) (ix2 r u) = prob (rows x) (rows y) r := by
  show Ideal.logistic (scoreCol x y (ix2 r u)) = _
  rw [scoreCol_apply]
  rfl

/-- Column 0: the sum of log p over the positive pairs. -/
theorem out_logPos (x0 x1 x2 : Vec Ideal S8192x128 .f32) :
    out1_3 (F := Ideal) x0 x1 x2 (ix2 (0 : Fin 1) (0 : Fin 6)) = sumLogPos (rows x0) (rows x1) := by
  rw [out_eq]
  refine (row6_at_0 _ _ _ _ _ _).trans ((total_apply _).trans ?_)
  refine Finset.sum_congr rfl fun r _ => ?_
  show Ideal.log (logistic (scoreCol x0 x1) (ix2 r (0 : Fin 1))) = _
  rw [prob_apply]

/-- Column 1: the sum of log (1 - q) over the negative pairs; the spread scalar is the float word of one. -/
theorem out_logOneMinusNeg (x0 x1 x2 : Vec Ideal S8192x128 .f32) :
    out1_3 (F := Ideal) x0 x1 x2 (ix2 (0 : Fin 1) (1 : Fin 6)) = sumLogOneMinusNeg (rows x0) (rows x2) := by
  rw [out_eq]
  refine (row6_at_1 _ _ _ _ _ _).trans ((total_apply _).trans ?_)
  refine Finset.sum_congr rfl fun r _ => ?_
  show Ideal.log (Ideal.ofBits .f32 0x3F800000#32 - logistic (scoreCol x0 x2) (ix2 r (0 : Fin 1))) = _
  rw [prob_apply, ofBits_one]

/-- Column 2: the sum of the positive pairs' predictions. -/
theorem out_pos (x0 x1 x2 : Vec Ideal S8192x128 .f32) :
    out1_3 (F := Ideal) x0 x1 x2 (ix2 (0 : Fin 1) (2 : Fin 6)) = sumPos (rows x0) (rows x1) := by
  rw [out_eq]
  refine (row6_at_2 _ _ _ _ _ _).trans ((total_apply _).trans ?_)
  exact Finset.sum_congr rfl fun r _ => prob_apply x0 x1 r (0 : Fin 1)

/-- Column 3: the sum of the negative pairs' predictions. -/
theorem out_neg (x0 x1 x2 : Vec Ideal S8192x128 .f32) :
    out1_3 (F := Ideal) x0 x1 x2 (ix2 (0 : Fin 1) (3 : Fin 6)) = sumNeg (rows x0) (rows x2) := by
  rw [out_eq]
  refine (row6_at_3 _ _ _ _ _ _).trans ((total_apply _).trans ?_)
  exact Finset.sum_congr rfl fun r _ => prob_apply x0 x2 r (0 : Fin 1)

/-- Column 4: the sum of p * log p over the positive pairs. -/
theorem out_posLog (x0 x1 x2 : Vec Ideal S8192x128 .f32) :
    out1_3 (F := Ideal) x0 x1 x2 (ix2 (0 : Fin 1) (4 : Fin 6)) = sumPosLog (rows x0) (rows x1) := by
  rw [out_eq]
  refine (row6_at_4 _ _ _ _ _ _).trans ((total_apply _).trans ?_)
  refine Finset.sum_congr rfl fun r _ => ?_
  show logistic (scoreCol x0 x1) (ix2 r (0 : Fin 1)) * Ideal.log (logistic (scoreCol x0 x1) (ix2 r (0 : Fin 1))) = _
  rw [prob_apply]

/-- Column 5: the sum of q * log q over the negative pairs. -/
theorem out_negLog (x0 x1 x2 : Vec Ideal S8192x128 .f32) :
    out1_3 (F := Ideal) x0 x1 x2 (ix2 (0 : Fin 1) (5 : Fin 6)) = sumNegLog (rows x0) (rows x2) := by
  rw [out_eq]
  refine (row6_at_5 _ _ _ _ _ _).trans ((total_apply _).trans ?_)
  refine Finset.sum_congr rfl fun r _ => ?_
  show logistic (scoreCol x0 x2) (ix2 r (0 : Fin 1)) * Ideal.log (logistic (scoreCol x0 x2) (ix2 r (0 : Fin 1))) = _
  rw [prob_apply]

/-! ## From the one block to the array -/

section Final

variable (V : (c : Dev nD) → (b : Ref sig .tc) → Buf (Elt Ideal) ((c : Thread nD τ).loc b))

/-- The grid has one point; every window's block index there is zero on both axes (decided over the grid). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Input window 0's block at the point is the whole first array: block index zero, block extent the array's. -/
theorem iblk_0 (c : Dev nD) (t : Fin cfg1.N) : iblk1 (F := Ideal) V c 0 t = V c main_v55 := by
  obtain ⟨e0, e1, -⟩ := idx_facts t
  funext j
  show V c main_v55 (((cfg1.win 0).blk t).view.emb j) = V c main_v55 j
  refine congrArg (V c main_v55) ?_
  funext a; apply Fin.ext
  match a with
  | ⟨0, _⟩ => show win1_0.index t (0 : Fin 2) * 8192 + 1 * (j 0).val = (j 0).val; omega
  | ⟨1, _⟩ => show win1_0.index t (1 : Fin 2) * 128 + 1 * (j 1).val = (j 1).val; omega

/-- Input window 1's block at the point is the whole second array. -/
theorem iblk_1 (c : Dev nD) (t : Fin cfg1.N) : iblk1 (F := Ideal) V c 1 t = V c main_v62 := by
  obtain ⟨-, -, e0, e1, -⟩ := idx_facts t
  funext j
  show V c main_v62 (((cfg1.win 1).blk t).view.emb j) = V c main_v62 j
  refine congrArg (V c main_v62) ?_
  funext a; apply Fin.ext
  match a with
  | ⟨0, _⟩ => show win1_1.index t (0 : Fin 2) * 8192 + 1 * (j 0).val = (j 0).val; omega
  | ⟨1, _⟩ => show win1_1.index t (1 : Fin 2) * 128 + 1 * (j 1).val = (j 1).val; omega

/-- Input window 2's block at the point is the whole third array. -/
theorem iblk_2 (c : Dev nD) (t : Fin cfg1.N) : iblk1 (F := Ideal) V c 2 t = V c main_v69 := by
  obtain ⟨-, -, -, -, e0, e1, -⟩ := idx_facts t
  funext j
  show V c main_v69 (((cfg1.win 2).blk t).view.emb j) = V c main_v69 j
  refine congrArg (V c main_v69) ?_
  funext a; apply Fin.ext
  match a with
  | ⟨0, _⟩ => show win1_2.index t (0 : Fin 2) * 8192 + 1 * (j 0).val = (j 0).val; omega
  | ⟨1, _⟩ => show win1_2.index t (1 : Fin 2) * 128 + 1 * (j 1).val = (j 1).val; omega

/-- What the point writes back is the row of the three arrays, read through the output's (whole-array) block. -/
theorem flushed_eq (c : Dev nD) (t : Fin cfg1.N) :
    (dat1 (F := Ideal) V c).flushed 3 t
      = ((cfg1.win 3).blk t).view.read (Elt Ideal) (out1_3 (V c main_v55) (V c main_v62) (V c main_v69)) := by
  show (cfg1.win 3).cut (grid1.coords t) ((dat1 V c).after 3 t) = _
  rw [after1_3, iblk_0, iblk_1, iblk_2]
  obtain ⟨-, -, -, -, -, -, e0, e1⟩ := idx_facts t
  funext j
  show out1_3 (V c main_v55) (V c main_v62) (V c main_v69) j
    = out1_3 (V c main_v55) (V c main_v62) (V c main_v69) (((cfg1.win 3).blk t).view.emb j)
  refine congrArg (out1_3 (V c main_v55) (V c main_v62) (V c main_v69)) ?_
  funext a; apply Fin.ext
  match a with
  | ⟨0, _⟩ => show (j 0).val = win1_3.index t (0 : Fin 2) * 1 + 1 * (j 0).val; omega
  | ⟨1, _⟩ => show (j 1).val = win1_3.index t (1 : Fin 2) * 6 + 1 * (j 1).val; omega

/-- Every index of the [1, 6] array is in the one point's block. -/
theorem covered (i : S1x6.Idx) :
    ∃ t : Fin cfg1.N, (cfg1.win 3).flush t = true ∧ i ∈ ((cfg1.win 3).blk t).view.set := by
  have t : Fin cfg1.N := ⟨0, by decide⟩
  obtain ⟨-, -, -, -, -, -, e0, e1⟩ := idx_facts t
  refine ⟨t, flush1_3 t, ?_⟩
  show i ∈ ((View.whole main_v84).slice (win1_3.rect t)).set
  rw [View.set_slice_whole, Rect.mem_set_unit]
  intro a
  match a with
  | ⟨0, _⟩ =>
    show win1_3.index t (0 : Fin 2) * 1 ≤ (i 0).val ∧ (i 0).val < win1_3.index t (0 : Fin 2) * 1 + 1
    have h0 : (i 0).val < 1 := (i 0).isLt
    omega
  | ⟨1, _⟩ =>
    show win1_3.index t (1 : Fin 2) * 6 ≤ (i 1).val ∧ (i 1).val < win1_3.index t (1 : Fin 2) * 6 + 6
    have h1 : (i 1).val < 6 := (i 1).isLt
    omega

/-- The output array after the region's run is the row of the three input arrays as the region finds them. -/
theorem final (c : Dev nD) :
    (dat1 (F := Ideal) V c).arrAt 3 cfg1.N = out1_3 (V c main_v55) (V c main_v62) (V c main_v69) :=
  (dat1 V c).arrAt_eq_of_cover 3 _ (fun t _ => flushed_eq V c t) (covered)

end Final

end Cert.KernelIdeal.SumsValue

end
-- ==== Proof.AccValue.lean ====
/-
  What the third kernel region leaves in its one-entry output: a running total carried across its two grid points.

  The region visits two points. Point t holds rows 8192 t .. 8192 t + 8191 of two tables of 16384 rows by 128 columns.
  At each point the body adds to a one-entry accumulator the sum, over the point's 8192 rows, of the logistic function of
  the inner product of the two tables' rows; the first point sets the accumulator to zero before adding, and the second
  point copies the accumulator to the output afterwards. Over the extended reals the output therefore ends at
  (0 + the sum over the first half of the rows) + the sum over the second half: the total of the predicted
  probabilities of all 16384 row pairs, taken in two halves onto a total that starts at zero.

  The steps: what each point leaves in the accumulator and in the output, as the value its last covering store wrote;
  that value read at its one entry (a column sum of logistic values of row sums of entrywise products); the blocks of
  the two points as the two halves of the tables; the two points composed in order; and the single write-back, whose
  block is the whole output array.
-/
import proofs.«100895_j67216238183228_1_alg».proof.Proof.FrameKI
import proofs.«100895_j67216238183228_1_alg».proof.Proof.LossSpec
import proofs.«100895_j67216238183228_1_alg».proof.Proof.LibRowOps
import proofs.«100895_j67216238183228_1_alg».proof.Proof.LibColumnSum
import Idealize.ShloMosaic.Lib.Pipeline.Value
import Idealize.ShloMosaic.Lib.ValueLayout

noncomputable section

namespace Cert.KernelIdeal.AccValue

open Cert.KernelIdeal Cert.KernelIdeal.Gen Cert.GraphLoss
open Idealize.ShloMosaic Idealize.ShloMosaic.ValueIdx Idealize.ShloMosaic.TcCoe Idealize.SL.Sem
open Idealize.ShloMosaic.Pipeline (Dat)

variable {F : FTy → Type} [FloatOps F]

/-- The zero offsets of a whole-buffer rectangle. -/
theorem hz : (![0, 0] : Fin 2 → Nat) = fun _ => 0 := funext fun a => by fin_cases a <;> rfl

/-- At the second point the scratch ends at the running total plus the point's sum: its one covering store's
    payload, whose three loads read the whole buffers. -/
theorem scratch_B (c : Dev nD) (i : grid2.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond2_0 i) (hc1 : cond2_1 i)
    (x0 x1 : Vec F S8192x128 .f32) (xs0 : Vec F S1x1 .f32) :
    sout2_B_0 c i a1 h1 a2 h2 a3 h3 a4 h4 hc0 hc1 x0 x1 xs0 = k2_pay2 x0 x1 xs0 := by
  unfold sout2_B_0
  rw [View.read_writes_eq_canon _ _ _ (scover2_B_0 c i a1 h1 a2 h2 a3 h3 a4 h4 hc0 hc1 x0 x1 xs0)]
  unfold kernelRun2_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- At the second point the output receives a copy of the scratch as the store just left it. -/
theorem out_B (c : Dev nD) (i : grid2.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond2_0 i) (hc1 : cond2_1 i)
    (x0 x1 : Vec F S8192x128 .f32) (xs0 : Vec F S1x1 .f32) :
    out2_B_2 c i a1 h1 a2 h2 a3 h3 a4 h4 hc0 hc1 x0 x1 xs0 = k2_pay2 x0 x1 xs0 := by
  unfold out2_B_2
  rw [View.read_writes_eq_canon _ _ _ (cover2_B_2 c i a1 h1 a2 h2 a3 h3 a4 h4 hc0 hc1 x0 x1 xs0)]
  unfold kernelRun2_B
  dsimp only
  sl_unfold_words
  rw [View.canon_unit_zero hz, View.readCov_unit_zero (S := S1x1) _ hz]
  simp only [View.readAt_eq_ld, h1.read_unread, h2.read_unread, h4.read_unread, View.ld_unit_zero (S := S8192x128) hz,
    View.ld_unit_zero (S := S1x1) hz]

/-- At the first point the scratch is set to zero, read back, and ends at zero plus the point's sum. -/
theorem scratch_A (c : Dev nD) (i : grid2.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond2_0 i) (hc1 : ¬cond2_1 i)
    (x0 x1 : Vec F S8192x128 .f32) :
    sout2_A_0 c i a1 h1 a2 h2 a3 h3 a4 h4 hc0 hc1 x0 x1 = k2_pay2 x0 x1 k2_pay1 := by
  unfold sout2_A_0
  rw [View.read_writes_eq_canon _ _ _ (scover2_A_0 c i a1 h1 a2 h2 a3 h3 a4 h4 hc0 hc1 x0 x1)]
  unfold kernelRun2_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-! ## The two payloads read at the one entry, over the extended reals -/

/-- The zero block at its entry is the float word zero. -/
theorem pay1_apply : k2_pay1 (F := Ideal) (ix2 (0 : Fin 1) (0 : Fin 1)) = Ideal.ofBits .f32 0x00000000#32 := by
  unfold k2_pay1
  rw [shapeCast_self]
  rfl

/-- The vector logistic function is entrywise. -/
theorem logistic_apply {s : Shape} (x : FVec Ideal s .f32) (i : s.Idx) : logistic x i = Ideal.logistic (x i) := rfl

/-- The accumulate payload at its entry: the carried total plus, summed over the 8192 rows, the logistic function of
    the row's inner product. The column sum reads the column [8192, 1] of logistic values, each the logistic function of
    the row sum recast to a column; the products are entrywise. -/
theorem pay2_apply (v3 v5 : Vec Ideal S8192x128 .f32) (v13 : Vec Ideal S1x1 .f32) :
    k2_pay2 (F := Ideal) v3 v5 v13 (ix2 (0 : Fin 1) (0 : Fin 1))
      = v13 (ix2 (0 : Fin 1) (0 : Fin 1)) + ∑ r : Fin 8192, Ideal.logistic (∑ k : Fin 128, v3 (ix2 r k) * v5 (ix2 r k)) := by
  unfold k2_pay2
  rw [shapeCast_self, shapeCast_self, shapeCast_self]
  refine (addf_apply v13 _ (ix2 (0 : Fin 1) (0 : Fin 1))).trans ?_
  refine congrArg (fun z => v13 (ix2 (0 : Fin 1) (0 : Fin 1)) + z) ?_
  refine (Gcn.Lib.shapeCast_a_a1_apply _ shapeCasts_S1_S1x1 (0 : Fin 1) (0 : Fin 1)).trans ?_
  refine (ColumnSum.colSum_apply _ reduces_S8192x1_S1 _ _ (0 : Fin 1)).trans ?_
  refine Finset.sum_congr rfl fun r _ => ?_
  refine (logistic_apply _ (ix2 r (0 : Fin 1))).trans ?_
  refine congrArg Ideal.logistic ?_
  refine (Gcn.Lib.shapeCast_a_a1_apply _ shapeCasts_S8192_S8192x1 r (0 : Fin 1)).trans ?_
  exact Gcn.Lib.rowSum_apply (mulf v3 v5) reduces_S8192x128_S8192 _ _ r

/-! ## The input blocks of the two points are the two halves of the tables -/

section Blocks
variable (V : (c : Dev nD) → (b : Ref sig .tc) → Buf (Elt Ideal) ((c : Thread nD τ).loc b))

/-- Block t of the first table, at (r, k), is the table's entry at row 8192 t + r: a block's coordinate on an axis is
    the block index times the block size plus the inner coordinate, and the column index of every block is zero. -/
theorem block0_apply (c : Dev nD) (t : Fin cfg2.N) (r : Fin 8192) (k : Fin 128) (j : Fin 16384)
    (hj : j.val = 8192 * t.val + r.val) :
    (iblk2 (F := Ideal) V c 0 t : Vec Ideal S8192x128 .f32) (ix2 r k) = rows (V c main_v76) j k := by
  have hi : win2_0.index t 0 = t.val ∧ win2_0.index t 1 = 0 := by
    rcases fin_N2 t with rfl | rfl <;> decide
  unfold iblk2
  rw [View.read_apply]
  show V c main_v76 _ = V c main_v76 (ix2 j k)
  refine congrArg (V c main_v76) ?_
  funext a
  apply Fin.ext
  match a with
  | ⟨0, _⟩ => show win2_0.index t 0 * 8192 + 1 * r.val = j.val; rw [hi.1, hj]; omega
  | ⟨1, _⟩ => show win2_0.index t 1 * 128 + 1 * k.val = k.val; rw [hi.2]; omega

/-- The same for the second table. -/
theorem block1_apply (c : Dev nD) (t : Fin cfg2.N) (r : Fin 8192) (k : Fin 128) (j : Fin 16384)
    (hj : j.val = 8192 * t.val + r.val) :
    (iblk2 (F := Ideal) V c 1 t : Vec Ideal S8192x128 .f32) (ix2 r k) = rows (V c main_v83) j k := by
  have hi : win2_1.index t 0 = t.val ∧ win2_1.index t 1 = 0 := by
    rcases fin_N2 t with rfl | rfl <;> decide
  unfold iblk2
  rw [View.read_apply]
  show V c main_v83 _ = V c main_v83 (ix2 j k)
  refine congrArg (V c main_v83) ?_
  funext a
  apply Fin.ext
  match a with
  | ⟨0, _⟩ => show win2_1.index t 0 * 8192 + 1 * r.val = j.val; rw [hi.1, hj]; omega
  | ⟨1, _⟩ => show win2_1.index t 1 * 128 + 1 * k.val = k.val; rw [hi.2]; omega

end Blocks

/-! ## The two points in order, and the one write-back -/

section Run
variable (V : (c : Dev nD) → (b : Ref sig .tc) → Buf (Elt Ideal) ((c : Thread nD τ).loc b))

/-- What the scratch holds after the first point: zero plus the sum over the first halves. -/
abbrev afterFirst (c : Dev nD) : Vec Ideal S1x1 .f32 :=
  k2_pay2 (iblk2 V c 0 t2_0) (iblk2 V c 1 t2_0) (k2_pay1 (F := Ideal))

/-- What the second point leaves in the scratch and copies to the output: the first point's total plus the sum over
    the second halves. -/
abbrev result (c : Dev nD) : Buf (Elt Ideal) ((c : Thread nD τ).loc main_v105) :=
  k2_pay2 (iblk2 V c 0 t2_1) (iblk2 V c 1 t2_1) (afterFirst V c)

/-- The first point is of the case that resets the scratch. -/
theorem scratch_first (c : Dev nD) : (outsAt2 V c t2_0.val t2_0.isLt).2 = afterFirst V c := by
  refine (congrArg Prod.snd (outsAt2_A V c t2_0 (by decide) (by decide))).trans ?_
  dsimp only
  exact scratch_A (F := Ideal) c (grid2.coords t2_0) (ms2_0 t2_0) (hs2_0 t2_0) (ms2_1 t2_0) (hs2_1 t2_0) (ms2_2 t2_0) (hs2_2 t2_0)
    scM2_0 (Memref.isWhole_whole _) _ _ (iblk2 V c 0 t2_0) (iblk2 V c 1 t2_0)

/-- The second point is of the case that accumulates onto what the first left and writes the output. -/
theorem out_second (c : Dev nD) : (outsAt2 V c t2_1.val t2_1.isLt).1 = result V c := by
  refine (congrArg Prod.fst (outsAt2_B V c t2_1 (by decide) (by decide))).trans ?_
  dsimp only
  refine (out_B (F := Ideal) c (grid2.coords t2_1) (ms2_0 t2_1) (hs2_0 t2_1) (ms2_1 t2_1) (hs2_1 t2_1) (ms2_2 t2_1) (hs2_2 t2_1)
    scM2_0 (Memref.isWhole_whole _) _ _ (iblk2 V c 0 t2_1) (iblk2 V c 1 t2_1) (outsAt2 V c t2_0.val t2_0.isLt).2).trans ?_
  exact congrArg (k2_pay2 (iblk2 V c 0 t2_1) (iblk2 V c 1 t2_1)) (scratch_first V c)

/-- The one write-back, at the second point, writes that: the output's block is its whole [1, 1] array. -/
theorem flushed_eq (c : Dev nD) (t : Fin cfg2.N) (hf : (cfg2.win 2).flush t = true) :
    (dat2 V c).flushed 2 t = ((cfg2.win 2).blk t).view.read (Elt Ideal) (result V c) := by
  have hN : cfg2.N = 2 := N_2
  have h1 : t.val = 1 := by have := (flush2_2 t).mp hf; have := t.isLt; omega
  obtain rfl : t = t2_1 := Fin.ext h1
  show (cfg2.win 2).cut (grid2.coords t2_1) ((dat2 V c).after 2 t2_1) = _
  rw [after2_2, out_second]
  have hz' : (fun a => win2_2.index t2_1 a * main_v105.ty.shape.size a) = fun _ => 0 := funext fun a => by fin_cases a <;> decide
  exact (Memref.read_access_unit_zero (Elt Ideal) main_v105 hz' (fun a => by rw [congrFun hz' a]; simp) (result V c)).symm

/-- So the output array ends holding it. -/
theorem final_array (c : Dev nD) : (dat2 V c).arrAt 2 cfg2.N = result V c :=
  (dat2 V c).arrAt_eq_of_cover 2 (result V c) (flushed_eq V c) fun i =>
    ⟨t2_1, (flush2_2 t2_1).mpr rfl, by
      show i ∈ ((View.whole main_v105).slice (win2_2.rect t2_1)).set
      rw [View.set_slice_whole, Rect.mem_set_unit]
      intro a
      have h0 : (i 0 : Nat) < 1 := (i 0).isLt
      have h1 : (i 1 : Nat) < 1 := (i 1).isLt
      match a with
      | ⟨0, _⟩ => show win2_2.index t2_1 0 * win2_2.size 0 ≤ (i 0 : Nat) ∧ (i 0 : Nat) < win2_2.index t2_1 0 * win2_2.size 0 + win2_2.xsize (grid2.coords t2_1) 0
                  rw [show win2_2.index t2_1 0 * win2_2.size 0 = 0 from by decide +kernel, show win2_2.xsize (grid2.coords t2_1) 0 = 1 from by decide +kernel]; omega
      | ⟨1, _⟩ => show win2_2.index t2_1 1 * win2_2.size 1 ≤ (i 1 : Nat) ∧ (i 1 : Nat) < win2_2.index t2_1 1 * win2_2.size 1 + win2_2.xsize (grid2.coords t2_1) 1
                  rw [show win2_2.index t2_1 1 * win2_2.size 1 = 0 from by decide +kernel, show win2_2.xsize (grid2.coords t2_1) 1 = 1 from by decide +kernel]; omega⟩

/-- The sum one point adds: over the 8192 rows of its two blocks, the logistic function of the rows' inner product, is
    the sum of the predicted probabilities of the table rows the blocks hold. -/
theorem point_sum (x0 x1 : Vec Ideal S8192x128 .f32) (su si : Fin 16384 → Fin 128 → EReal) (row : Fin 8192 → Fin 16384)
    (h0 : ∀ r k, x0 (ix2 r k) = su (row r) k) (h1 : ∀ r k, x1 (ix2 r k) = si (row r) k) :
    (∑ r : Fin 8192, Ideal.logistic (∑ k : Fin 128, x0 (ix2 r k) * x1 (ix2 r k))) = ∑ r : Fin 8192, prob su si (row r) :=
  Finset.sum_congr rfl fun r _ => congrArg Ideal.logistic (Finset.sum_congr rfl fun k _ => by rw [h0 r k, h1 r k])

/-- The output's one entry is the running total of the two halves, started from zero. -/
theorem final (c : Dev nD) :
    (dat2 (F := Ideal) V c).arrAt 2 cfg2.N (ix2 (0 : Fin 1) (0 : Fin 1))
      = accTwoHalves (rows (V c main_v76)) (rows (V c main_v83)) := by
  refine (congrFun (final_array V c) (ix2 (0 : Fin 1) (0 : Fin 1))).trans ?_
  refine (pay2_apply (iblk2 V c 0 t2_1) (iblk2 V c 1 t2_1) (afterFirst V c)).trans ?_
  refine congrArg₂ (· + ·) ?_ (point_sum (iblk2 V c 0 t2_1) (iblk2 V c 1 t2_1) (rows (V c main_v76)) (rows (V c main_v83)) highRow
    (fun r k => block0_apply V c t2_1 r k (highRow r) (by show 8192 + r.val = 8192 * 1 + r.val; omega))
    (fun r k => block1_apply V c t2_1 r k (highRow r) (by show 8192 + r.val = 8192 * 1 + r.val; omega)))
  refine (pay2_apply (iblk2 V c 0 t2_0) (iblk2 V c 1 t2_0) (k2_pay1 (F := Ideal))).trans ?_
  exact congrArg₂ (· + ·) (pay1_apply.trans ofBits_zero)
    (point_sum (iblk2 V c 0 t2_0) (iblk2 V c 1 t2_0) (rows (V c main_v76)) (rows (V c main_v83)) lowRow
      (fun r k => block0_apply V c t2_0 r k (lowRow r) (by show r.val = 8192 * 0 + r.val; omega))
      (fun r k => block1_apply V c t2_0 r k (lowRow r) (by show r.val = 8192 * 0 + r.val; omega)))

end Run

end Cert.KernelIdeal.AccValue

end
-- ==== Proof.KernelChain.lean ====
/-
  The kernel program's two results, as the first arrangement of the two losses (LossSpec), over the SAME five tables of
  embedding rows the reference program's results are functions of.

  Both programs build the four layer tables with the same host operations on the same arguments (the stacked embeddings,
  and three rounds of the graph's weighted neighbour sums), so the tables agree term for term. The kernel's first
  region pools them entry by entry, a quarter of the left-to-right sum, which is the reference's sum divided by four.
  Both programs then gather the same rows of the pooled table: the batch's users, positive and negative items, and the
  sampled users and items. The kernel's second region leaves six sums over the batch in a [1, 6] array, from which the
  host takes three means (each a pair of sums added and divided by the count, the cross-entropy negated first); its
  third region leaves the sampled pairs' predictions summed in two halves onto a running total from zero, which the
  host divides by the count; the second result is the same expression of these means in both programs.
  Every boundary's buffer contents are read off the frame's fold from the launch memory: a host stretch by evaluating
  its operations, a region's output array by that region's value lemma, any other buffer as it was.
-/
import proofs.«100895_j67216238183228_1_alg».proof.Proof.FrameKI
import proofs.«100895_j67216238183228_1_alg».proof.Proof.RefTables
import proofs.«100895_j67216238183228_1_alg».proof.Proof.LossSpec
import proofs.«100895_j67216238183228_1_alg».proof.Proof.LossLaws
import proofs.«100895_j67216238183228_1_alg».proof.Proof.PoolValue
import proofs.«100895_j67216238183228_1_alg».proof.Proof.SumsValue
import proofs.«100895_j67216238183228_1_alg».proof.Proof.AccValue
import Idealize.ShloMosaic.Lib.Pipeline.Value

set_option maxRecDepth 16384

noncomputable section

namespace Cert.Bridge

open Idealize.ShloMosaic Idealize.ShloMosaic.TcCoe Idealize.SL.Sem Idealize.ShloMosaic.StableHlo
open Cert.ReferenceIdeal.Value Cert.ReferenceIdeal.RefRead

variable (m : (ℓ : Loc Cert.KernelIdeal.nD Cert.KernelIdeal.τ Cert.KernelIdeal.sig) → Buf (Elt Ideal) ℓ) (ρ : Dev Cert.KernelIdeal.nD → PrngReg)
variable (V0 : Valuation Cert.ReferenceIdeal.τ Cert.ReferenceIdeal.sig (Elt Ideal)) (c : Dev Cert.KernelIdeal.nD)

/-- The reference program is launched on the kernel program's ten argument arrays. -/
structure SameArgs : Prop where
  a0 : V0 (Proc.devRef .tc Cert.ReferenceIdeal.main_arg0) = Cert.KernelIdeal.Gen.W0 m ρ c (Proc.devRef .tc Cert.KernelIdeal.main_arg0)
  a1 : V0 (Proc.devRef .tc Cert.ReferenceIdeal.main_arg1) = Cert.KernelIdeal.Gen.W0 m ρ c (Proc.devRef .tc Cert.KernelIdeal.main_arg1)
  a2 : V0 (Proc.devRef .tc Cert.ReferenceIdeal.main_arg2) = Cert.KernelIdeal.Gen.W0 m ρ c (Proc.devRef .tc Cert.KernelIdeal.main_arg2)
  a3 : V0 (Proc.devRef .tc Cert.ReferenceIdeal.main_arg3) = Cert.KernelIdeal.Gen.W0 m ρ c (Proc.devRef .tc Cert.KernelIdeal.main_arg3)
  a4 : V0 (Proc.devRef .tc Cert.ReferenceIdeal.main_arg4) = Cert.KernelIdeal.Gen.W0 m ρ c (Proc.devRef .tc Cert.KernelIdeal.main_arg4)
  a5 : V0 (Proc.devRef .tc Cert.ReferenceIdeal.main_arg5) = Cert.KernelIdeal.Gen.W0 m ρ c (Proc.devRef .tc Cert.KernelIdeal.main_arg5)
  a6 : V0 (Proc.devRef .tc Cert.ReferenceIdeal.main_arg6) = Cert.KernelIdeal.Gen.W0 m ρ c (Proc.devRef .tc Cert.KernelIdeal.main_arg6)
  a7 : V0 (Proc.devRef .tc Cert.ReferenceIdeal.main_arg7) = Cert.KernelIdeal.Gen.W0 m ρ c (Proc.devRef .tc Cert.KernelIdeal.main_arg7)
  a8 : V0 (Proc.devRef .tc Cert.ReferenceIdeal.main_arg8) = Cert.KernelIdeal.Gen.W0 m ρ c (Proc.devRef .tc Cert.KernelIdeal.main_arg8)
  a9 : V0 (Proc.devRef .tc Cert.ReferenceIdeal.main_arg9) = Cert.KernelIdeal.Gen.W0 m ρ c (Proc.devRef .tc Cert.KernelIdeal.main_arg9)

/-! ## The layer tables: the same host operations in both programs -/

theorem layer0 (h : SameArgs m ρ V0 c) :
    Cert.KernelIdeal.Gen.W1 m ρ c (Proc.devRef .tc Cert.KernelIdeal.main_v6) = res_main_v6 V0 := by
  show StableHlo.after Cert.KernelIdeal.Gen.hostOps0 (Cert.KernelIdeal.Gen.W0 m ρ c) (Proc.devRef .tc Cert.KernelIdeal.main_v6) = _
  after_results_simp
  unfold Cert.ReferenceIdeal.Value.res_main_v6
  rw [h.a0, h.a1]
  rfl
theorem layer1 (h : SameArgs m ρ V0 c) :
    Cert.KernelIdeal.Gen.W1 m ρ c (Proc.devRef .tc Cert.KernelIdeal.main_v19) = res_main_v19 V0 := by
  show StableHlo.after Cert.KernelIdeal.Gen.hostOps0 (Cert.KernelIdeal.Gen.W0 m ρ c) (Proc.devRef .tc Cert.KernelIdeal.main_v19) = _
  after_results_simp
  unfold Cert.ReferenceIdeal.Value.res_main_v19 Cert.ReferenceIdeal.Value.res_main_v2 Cert.ReferenceIdeal.Value.res_main_v5 Cert.ReferenceIdeal.Value.res_main_v6
  rw [h.a0, h.a1, h.a2, h.a3, h.a4]
  rfl
theorem layer2 (h : SameArgs m ρ V0 c) :
    Cert.KernelIdeal.Gen.W1 m ρ c (Proc.devRef .tc Cert.KernelIdeal.main_v32) = res_main_v33 V0 := by
  show StableHlo.after Cert.KernelIdeal.Gen.hostOps0 (Cert.KernelIdeal.Gen.W0 m ρ c) (Proc.devRef .tc Cert.KernelIdeal.main_v32) = _
  after_results_simp
  unfold Cert.ReferenceIdeal.Value.res_main_v33 Cert.ReferenceIdeal.Value.res_main_v19 Cert.ReferenceIdeal.Value.res_main_v2 Cert.ReferenceIdeal.Value.res_main_v5 Cert.ReferenceIdeal.Value.res_main_v6
  rw [h.a0, h.a1, h.a2, h.a3, h.a4]
  rfl
theorem layer3 (h : SameArgs m ρ V0 c) :
    Cert.KernelIdeal.Gen.W1 m ρ c (Proc.devRef .tc Cert.KernelIdeal.main_v45) = thirdLayer V0 := by
  show StableHlo.after Cert.KernelIdeal.Gen.hostOps0 (Cert.KernelIdeal.Gen.W0 m ρ c) (Proc.devRef .tc Cert.KernelIdeal.main_v45) = _
  after_results_simp
  unfold Cert.ReferenceIdeal.RefRead.thirdLayer Cert.ReferenceIdeal.Value.res_main_v33 Cert.ReferenceIdeal.Value.res_main_v19 Cert.ReferenceIdeal.Value.res_main_v2 Cert.ReferenceIdeal.Value.res_main_v5 Cert.ReferenceIdeal.Value.res_main_v6
  rw [h.a0, h.a1, h.a2, h.a3, h.a4]
  rfl

/-- The pooled table: the kernel's first region leaves the reference's pooled table, entry by entry
    (a quarter of the sum is the sum divided by four). -/
theorem pooled (h : SameArgs m ρ V0 c) :
    Cert.KernelIdeal.Gen.W2 m ρ c (Proc.devRef .tc Cert.KernelIdeal.main_v46) = res_main_v50 V0 := by
  refine (Cert.KernelIdeal.Gen.W2_arr m ρ c 4).trans ?_
  rw [Cert.KernelIdeal.PoolValue.final, pooled_eq]
  funext i
  rw [Cert.GraphLoss.poolK_eq_poolR]
  show Cert.GraphLoss.poolR (Cert.KernelIdeal.Gen.W1 m ρ c (Proc.devRef .tc Cert.KernelIdeal.main_v6) i) (Cert.KernelIdeal.Gen.W1 m ρ c (Proc.devRef .tc Cert.KernelIdeal.main_v19) i)
      (Cert.KernelIdeal.Gen.W1 m ρ c (Proc.devRef .tc Cert.KernelIdeal.main_v32) i) (Cert.KernelIdeal.Gen.W1 m ρ c (Proc.devRef .tc Cert.KernelIdeal.main_v45) i) = _
  rw [layer0 m ρ V0 c h, layer1 m ρ V0 c h, layer2 m ρ V0 c h, layer3 m ρ V0 c h]
  unfold Cert.GraphLoss.poolR
  rw [← Cert.GraphLoss.ofBits_four]
  rfl

/-! ## The batch's rows: the same gathers of the pooled table in both programs -/

theorem arg5_at2 : Cert.KernelIdeal.Gen.W2 m ρ c (Proc.devRef .tc Cert.KernelIdeal.main_arg5) = Cert.KernelIdeal.Gen.W0 m ρ c (Proc.devRef .tc Cert.KernelIdeal.main_arg5) :=
  (Cert.KernelIdeal.Gen.W2_of_ne m ρ c Cert.KernelIdeal.main_arg5 (by decide)).trans (by
    show StableHlo.after Cert.KernelIdeal.Gen.hostOps0 (Cert.KernelIdeal.Gen.W0 m ρ c) (Proc.devRef .tc Cert.KernelIdeal.main_arg5) = _
    after_results_simp)

theorem arg6_at2 : Cert.KernelIdeal.Gen.W2 m ρ c (Proc.devRef .tc Cert.KernelIdeal.main_arg6) = Cert.KernelIdeal.Gen.W0 m ρ c (Proc.devRef .tc Cert.KernelIdeal.main_arg6) :=
  (Cert.KernelIdeal.Gen.W2_of_ne m ρ c Cert.KernelIdeal.main_arg6 (by decide)).trans (by
    show StableHlo.after Cert.KernelIdeal.Gen.hostOps0 (Cert.KernelIdeal.Gen.W0 m ρ c) (Proc.devRef .tc Cert.KernelIdeal.main_arg6) = _
    after_results_simp)

theorem arg7_at2 : Cert.KernelIdeal.Gen.W2 m ρ c (Proc.devRef .tc Cert.KernelIdeal.main_arg7) = Cert.KernelIdeal.Gen.W0 m ρ c (Proc.devRef .tc Cert.KernelIdeal.main_arg7) :=
  (Cert.KernelIdeal.Gen.W2_of_ne m ρ c Cert.KernelIdeal.main_arg7 (by decide)).trans (by
    show StableHlo.after Cert.KernelIdeal.Gen.hostOps0 (Cert.KernelIdeal.Gen.W0 m ρ c) (Proc.devRef .tc Cert.KernelIdeal.main_arg7) = _
    after_results_simp)

theorem arg8_at2 : Cert.KernelIdeal.Gen.W2 m ρ c (Proc.devRef .tc Cert.KernelIdeal.main_arg8) = Cert.KernelIdeal.Gen.W0 m ρ c (Proc.devRef .tc Cert.KernelIdeal.main_arg8) :=
  (Cert.KernelIdeal.Gen.W2_of_ne m ρ c Cert.KernelIdeal.main_arg8 (by decide)).trans (by
    show StableHlo.after Cert.KernelIdeal.Gen.hostOps0 (Cert.KernelIdeal.Gen.W0 m ρ c) (Proc.devRef .tc Cert.KernelIdeal.main_arg8) = _
    after_results_simp)

theorem arg9_at2 : Cert.KernelIdeal.Gen.W2 m ρ c (Proc.devRef .tc Cert.KernelIdeal.main_arg9) = Cert.KernelIdeal.Gen.W0 m ρ c (Proc.devRef .tc Cert.KernelIdeal.main_arg9) :=
  (Cert.KernelIdeal.Gen.W2_of_ne m ρ c Cert.KernelIdeal.main_arg9 (by decide)).trans (by
    show StableHlo.after Cert.KernelIdeal.Gen.hostOps0 (Cert.KernelIdeal.Gen.W0 m ρ c) (Proc.devRef .tc Cert.KernelIdeal.main_arg9) = _
    after_results_simp)

theorem users (h : SameArgs m ρ V0 c) :
    Cert.KernelIdeal.Gen.W3 m ρ c (Proc.devRef .tc Cert.KernelIdeal.main_v55) = userRows V0 := by
  show StableHlo.after Cert.KernelIdeal.Gen.hostOps1 (Cert.KernelIdeal.Gen.W2 m ρ c) (Proc.devRef .tc Cert.KernelIdeal.main_v55) = _
  after_results_simp
  rw [pooled m ρ V0 c h, arg5_at2 m ρ c]
  unfold Cert.ReferenceIdeal.RefRead.userRows Cert.ReferenceIdeal.Value.res_main_v59 Cert.ReferenceIdeal.Value.res_main_v51
  rw [h.a5]
  rfl
theorem positives (h : SameArgs m ρ V0 c) :
    Cert.KernelIdeal.Gen.W3 m ρ c (Proc.devRef .tc Cert.KernelIdeal.main_v62) = posRows V0 := by
  show StableHlo.after Cert.KernelIdeal.Gen.hostOps1 (Cert.KernelIdeal.Gen.W2 m ρ c) (Proc.devRef .tc Cert.KernelIdeal.main_v62) = _
  after_results_simp
  rw [pooled m ρ V0 c h, arg6_at2 m ρ c]
  unfold Cert.ReferenceIdeal.RefRead.posRows Cert.ReferenceIdeal.Value.res_main_v52
  rw [h.a6]
  rfl
theorem negatives (h : SameArgs m ρ V0 c) :
    Cert.KernelIdeal.Gen.W3 m ρ c (Proc.devRef .tc Cert.KernelIdeal.main_v69) = negRows V0 := by
  show StableHlo.after Cert.KernelIdeal.Gen.hostOps1 (Cert.KernelIdeal.Gen.W2 m ρ c) (Proc.devRef .tc Cert.KernelIdeal.main_v69) = _
  after_results_simp
  rw [pooled m ρ V0 c h, arg7_at2 m ρ c]
  unfold Cert.ReferenceIdeal.RefRead.negRows Cert.ReferenceIdeal.Value.res_main_v52
  rw [h.a7]
  rfl
theorem sampledUsers (h : SameArgs m ρ V0 c) :
    Cert.KernelIdeal.Gen.W3 m ρ c (Proc.devRef .tc Cert.KernelIdeal.main_v76) = sampledUserRows V0 := by
  show StableHlo.after Cert.KernelIdeal.Gen.hostOps1 (Cert.KernelIdeal.Gen.W2 m ρ c) (Proc.devRef .tc Cert.KernelIdeal.main_v76) = _
  after_results_simp
  rw [pooled m ρ V0 c h, arg8_at2 m ρ c]
  unfold Cert.ReferenceIdeal.RefRead.sampledUserRows Cert.ReferenceIdeal.Value.res_main_v51
  rw [h.a8]
  rfl
theorem sampledItems (h : SameArgs m ρ V0 c) :
    Cert.KernelIdeal.Gen.W3 m ρ c (Proc.devRef .tc Cert.KernelIdeal.main_v83) = sampledItemRows V0 := by
  show StableHlo.after Cert.KernelIdeal.Gen.hostOps1 (Cert.KernelIdeal.Gen.W2 m ρ c) (Proc.devRef .tc Cert.KernelIdeal.main_v83) = _
  after_results_simp
  rw [pooled m ρ V0 c h, arg9_at2 m ρ c]
  unfold Cert.ReferenceIdeal.RefRead.sampledItemRows Cert.ReferenceIdeal.Value.res_main_v52
  rw [h.a9]
  rfl

/-- The second region leaves the six sums of the batch's rows. -/
theorem sixSums (h : SameArgs m ρ V0 c) :
    Cert.KernelIdeal.Gen.W4 m ρ c (Proc.devRef .tc Cert.KernelIdeal.main_v84) = Cert.KernelIdeal.Gen.out1_3 (F := Ideal) (userRows V0) (posRows V0) (negRows V0) := by
  refine (Cert.KernelIdeal.Gen.W4_arr m ρ c 3).trans ?_
  rw [Cert.KernelIdeal.SumsValue.final]
  show Cert.KernelIdeal.Gen.out1_3 (Cert.KernelIdeal.Gen.W3 m ρ c (Proc.devRef .tc Cert.KernelIdeal.main_v55)) (Cert.KernelIdeal.Gen.W3 m ρ c (Proc.devRef .tc Cert.KernelIdeal.main_v62)) (Cert.KernelIdeal.Gen.W3 m ρ c (Proc.devRef .tc Cert.KernelIdeal.main_v69)) = _
  rw [users m ρ V0 c h, positives m ρ V0 c h, negatives m ρ V0 c h]

/-! ## Reading a scalar out of a small array -/

/-- The one index of a rank-0 array sits at row-major position 0. -/
theorem rank0_pos (i : (⟨0, ![]⟩ : Shape).Idx) : ((⟨0, ![]⟩ : Shape).rowMajor i).val = 0 := Shape.rowMajorPi_zero _ i

/-- Entry j of a [1, 6] array, taken out by flattening to [6], cutting the one-element slice at j and dropping its axis. -/
theorem pick6 (X : (⟨2, ![1, 6]⟩ : Shape).Idx → EReal) (j : Fin 6)
    (h1 : (⟨2, ![1, 6]⟩ : Shape).ShapeCasts ⟨1, ![6]⟩) (h2 : (⟨1, ![6]⟩ : Shape).Slices ![j.val] ⟨1, ![1]⟩)
    (h3 : (⟨1, ![1]⟩ : Shape).ShapeCasts ⟨0, ![]⟩) (i : (⟨0, ![]⟩ : Shape).Idx) :
    shapeCast ⟨0, ![]⟩ (extractStridedSlice ⟨1, ![1]⟩ ![j.val] (fun i => shapeCast ⟨1, ![6]⟩ X h1 i) h2) h3 i
      = X (ValueIdx.ix2 (0 : Fin 1) j) := by
  refine (shapeCast_apply _ h3 i (ValueIdx.ix1 (0 : Fin 1)) ?_).trans ?_
  · rw [Shape.rowMajor_val_one, rank0_pos]; rfl
  refine (extractStridedSlice_apply _ _ h2 (ValueIdx.ix1 (0 : Fin 1)) (ValueIdx.ix1 j) ?_).trans ?_
  · intro a
    match a with
    | ⟨0, _⟩ => show j.val = j.val + 0; omega
  exact shapeCast_apply X h1 (ValueIdx.ix1 j) (ValueIdx.ix2 (0 : Fin 1) j) (by
    rw [Shape.rowMajor_val_two, Shape.rowMajor_val_one]; show 0 * 6 + j.val = j.val; omega)

/-- The one entry of a [1, 1] array, taken out by dropping both axes. -/
theorem pick11 (Y : (⟨2, ![1, 1]⟩ : Shape).Idx → EReal) (h : (⟨2, ![1, 1]⟩ : Shape).ShapeCasts ⟨0, ![]⟩) (i : (⟨0, ![]⟩ : Shape).Idx) :
    shapeCast ⟨0, ![]⟩ Y h i = Y (ValueIdx.ix2 (0 : Fin 1) (0 : Fin 1)) :=
  shapeCast_apply Y h i (ValueIdx.ix2 (0 : Fin 1) (0 : Fin 1)) (by
    rw [Shape.rowMajor_val_two, rank0_pos]; show 0 * 1 + 0 = 0; omega)

/-! ## The kernel program's three means of the batch -/

/-- The cross-entropy: the first two sums, added, negated, divided by the count. -/
theorem bce_value (h : SameArgs m ρ V0 c) :
    Cert.KernelIdeal.Gen.W5 m ρ c (Proc.devRef .tc Cert.KernelIdeal.main_v100) = fun _ => Cert.GraphLoss.bceK (Cert.GraphLoss.rows (userRows (F := Ideal) V0)) (Cert.GraphLoss.rows (posRows (F := Ideal) V0)) (Cert.GraphLoss.rows (negRows (F := Ideal) V0)) (Ideal.ofBits .f32 0x46800000#32) := by
  show StableHlo.after Cert.KernelIdeal.Gen.hostOps2 (Cert.KernelIdeal.Gen.W4 m ρ c) (Proc.devRef .tc Cert.KernelIdeal.main_v100) = _
  after_results_simp
  rw [sixSums m ρ V0 c h]
  funext i
  unfold Cert.GraphLoss.bceK
  exact congrArg₂ Ideal.div (congrArg Neg.neg (congrArg₂ HAdd.hAdd
    ((pick6 _ 0 _ _ _ i).trans (Cert.KernelIdeal.SumsValue.out_logPos _ _ _))
    ((pick6 _ 1 _ _ _ i).trans (Cert.KernelIdeal.SumsValue.out_logOneMinusNeg _ _ _)))) rfl

/-- The mean prediction: the third and fourth sums, added, divided by the count. -/
theorem predAvg_value (h : SameArgs m ρ V0 c) :
    Cert.KernelIdeal.Gen.W5 m ρ c (Proc.devRef .tc Cert.KernelIdeal.main_v102) = fun _ => Cert.GraphLoss.predAvgK (Cert.GraphLoss.rows (userRows (F := Ideal) V0)) (Cert.GraphLoss.rows (posRows (F := Ideal) V0)) (Cert.GraphLoss.rows (negRows (F := Ideal) V0)) (Ideal.ofBits .f32 0x46800000#32) := by
  show StableHlo.after Cert.KernelIdeal.Gen.hostOps2 (Cert.KernelIdeal.Gen.W4 m ρ c) (Proc.devRef .tc Cert.KernelIdeal.main_v102) = _
  after_results_simp
  rw [sixSums m ρ V0 c h]
  funext i
  unfold Cert.GraphLoss.predAvgK
  exact congrArg₂ Ideal.div (congrArg₂ HAdd.hAdd
    ((pick6 _ 2 _ _ _ i).trans (Cert.KernelIdeal.SumsValue.out_pos _ _ _))
    ((pick6 _ 3 _ _ _ i).trans (Cert.KernelIdeal.SumsValue.out_neg _ _ _))) rfl

/-- The mean of p log p: the fifth and sixth sums, added, divided by the count. -/
theorem meanPredLog_value (h : SameArgs m ρ V0 c) :
    Cert.KernelIdeal.Gen.W5 m ρ c (Proc.devRef .tc Cert.KernelIdeal.main_v104) = fun _ => Cert.GraphLoss.meanPredLogK (Cert.GraphLoss.rows (userRows (F := Ideal) V0)) (Cert.GraphLoss.rows (posRows (F := Ideal) V0)) (Cert.GraphLoss.rows (negRows (F := Ideal) V0)) (Ideal.ofBits .f32 0x46800000#32) := by
  show StableHlo.after Cert.KernelIdeal.Gen.hostOps2 (Cert.KernelIdeal.Gen.W4 m ρ c) (Proc.devRef .tc Cert.KernelIdeal.main_v104) = _
  after_results_simp
  rw [sixSums m ρ V0 c h]
  funext i
  unfold Cert.GraphLoss.meanPredLogK
  exact congrArg₂ Ideal.div (congrArg₂ HAdd.hAdd
    ((pick6 _ 4 _ _ _ i).trans (Cert.KernelIdeal.SumsValue.out_posLog _ _ _))
    ((pick6 _ 5 _ _ _ i).trans (Cert.KernelIdeal.SumsValue.out_negLog _ _ _))) rfl

/-! ## The sampled pairs' running total -/

theorem sampledUsers_at5 (h : SameArgs m ρ V0 c) : Cert.KernelIdeal.Gen.W5 m ρ c (Proc.devRef .tc Cert.KernelIdeal.main_v76) = sampledUserRows V0 := by
  show StableHlo.after Cert.KernelIdeal.Gen.hostOps2 (Cert.KernelIdeal.Gen.W4 m ρ c) (Proc.devRef .tc Cert.KernelIdeal.main_v76) = _
  after_results_simp
  exact (Cert.KernelIdeal.Gen.W4_of_ne m ρ c Cert.KernelIdeal.main_v76 (by decide)).trans (sampledUsers m ρ V0 c h)

theorem sampledItems_at5 (h : SameArgs m ρ V0 c) : Cert.KernelIdeal.Gen.W5 m ρ c (Proc.devRef .tc Cert.KernelIdeal.main_v83) = sampledItemRows V0 := by
  show StableHlo.after Cert.KernelIdeal.Gen.hostOps2 (Cert.KernelIdeal.Gen.W4 m ρ c) (Proc.devRef .tc Cert.KernelIdeal.main_v83) = _
  after_results_simp
  exact (Cert.KernelIdeal.Gen.W4_of_ne m ρ c Cert.KernelIdeal.main_v83 (by decide)).trans (sampledItems m ρ V0 c h)

/-- The third region leaves the sampled pairs' predictions summed in two halves from zero. -/
theorem total_value (h : SameArgs m ρ V0 c) :
    Cert.KernelIdeal.Gen.W6 m ρ c (Proc.devRef .tc Cert.KernelIdeal.main_v105) (ValueIdx.ix2 (0 : Fin 1) (0 : Fin 1)) = Cert.GraphLoss.accTwoHalves (Cert.GraphLoss.rows (sampledUserRows (F := Ideal) V0)) (Cert.GraphLoss.rows (sampledItemRows (F := Ideal) V0)) := by
  refine (congrFun (Cert.KernelIdeal.Gen.W6_arr m ρ c 2) _).trans ?_
  refine (Cert.KernelIdeal.AccValue.final (Cert.KernelIdeal.Gen.V5 m ρ) c).trans ?_
  show Cert.GraphLoss.accTwoHalves (Cert.GraphLoss.rows (Cert.KernelIdeal.Gen.W5 m ρ c (Proc.devRef .tc Cert.KernelIdeal.main_v76))) (Cert.GraphLoss.rows (Cert.KernelIdeal.Gen.W5 m ρ c (Proc.devRef .tc Cert.KernelIdeal.main_v83))) = _
  rw [sampledUsers_at5 m ρ V0 c h, sampledItems_at5 m ρ V0 c h]

/-! ## The kernel program's two results -/

/-- The first result: the cross-entropy. -/
theorem result0 (h : SameArgs m ρ V0 c) :
    Cert.KernelIdeal.Gen.W7 m ρ c (Proc.devRef .tc Cert.KernelIdeal.main_v100) = fun _ => Cert.GraphLoss.bceK (Cert.GraphLoss.rows (userRows (F := Ideal) V0)) (Cert.GraphLoss.rows (posRows (F := Ideal) V0)) (Cert.GraphLoss.rows (negRows (F := Ideal) V0)) (Ideal.ofBits .f32 0x46800000#32) := by
  show StableHlo.after Cert.KernelIdeal.Gen.hostOps3 (Cert.KernelIdeal.Gen.W6 m ρ c) (Proc.devRef .tc Cert.KernelIdeal.main_v100) = _
  after_results_simp
  exact (Cert.KernelIdeal.Gen.W6_of_ne m ρ c Cert.KernelIdeal.main_v100 (by decide)).trans (bce_value m ρ V0 c h)

/-- The second result, from the three means and the sampled pairs' mean. -/
theorem result1 (h : SameArgs m ρ V0 c) :
    Cert.KernelIdeal.Gen.W7 m ρ c (Proc.devRef .tc Cert.KernelIdeal.main_v118) = fun _ => Cert.GraphLoss.infoOf (Ideal.ofBits .f32 0x3DCCCCCD#32) (Ideal.ofBits .f32 0x3C23D70A#32)
      (Cert.GraphLoss.predAvgK (Cert.GraphLoss.rows (userRows (F := Ideal) V0)) (Cert.GraphLoss.rows (posRows (F := Ideal) V0)) (Cert.GraphLoss.rows (negRows (F := Ideal) V0)) (Ideal.ofBits .f32 0x46800000#32)) (Cert.GraphLoss.predUlAvgK (Cert.GraphLoss.rows (sampledUserRows (F := Ideal) V0)) (Cert.GraphLoss.rows (sampledItemRows (F := Ideal) V0)) (Ideal.ofBits .f32 0x46800000#32)) (Cert.GraphLoss.meanPredLogK (Cert.GraphLoss.rows (userRows (F := Ideal) V0)) (Cert.GraphLoss.rows (posRows (F := Ideal) V0)) (Cert.GraphLoss.rows (negRows (F := Ideal) V0)) (Ideal.ofBits .f32 0x46800000#32)) := by
  show StableHlo.after Cert.KernelIdeal.Gen.hostOps3 (Cert.KernelIdeal.Gen.W6 m ρ c) (Proc.devRef .tc Cert.KernelIdeal.main_v118) = _
  after_results_simp
  rw [(Cert.KernelIdeal.Gen.W6_of_ne m ρ c Cert.KernelIdeal.main_v102 (by decide)).trans (predAvg_value m ρ V0 c h),
    (Cert.KernelIdeal.Gen.W6_of_ne m ρ c Cert.KernelIdeal.main_v104 (by decide)).trans (meanPredLog_value m ρ V0 c h)]
  funext i
  have hul : Ideal.div (shapeCast Cert.KernelIdeal.main_v106.ty.shape (Cert.KernelIdeal.Gen.W6 m ρ c (Proc.devRef .tc Cert.KernelIdeal.main_v105)) Cert.KernelIdeal.Gen.shapeCasts_S1x1_S_ i) (Ideal.ofBits .f32 0x46800000#32)
      = Cert.GraphLoss.predUlAvgK (Cert.GraphLoss.rows (sampledUserRows (F := Ideal) V0)) (Cert.GraphLoss.rows (sampledItemRows (F := Ideal) V0)) (Ideal.ofBits .f32 0x46800000#32) := by
    unfold Cert.GraphLoss.predUlAvgK
    exact congrArg₂ Ideal.div ((pick11 _ _ i).trans (total_value m ρ V0 c h)) rfl
  unfold Cert.GraphLoss.infoOf
  show Ideal.ofBits .f32 0x3DCCCCCD#32 * ((-(Cert.GraphLoss.predAvgK (Cert.GraphLoss.rows (userRows (F := Ideal) V0)) (Cert.GraphLoss.rows (posRows (F := Ideal) V0)) (Cert.GraphLoss.rows (negRows (F := Ideal) V0)) (Ideal.ofBits .f32 0x46800000#32))) * Ideal.log (Ideal.div (shapeCast Cert.KernelIdeal.main_v106.ty.shape (Cert.KernelIdeal.Gen.W6 m ρ c (Proc.devRef .tc Cert.KernelIdeal.main_v105)) Cert.KernelIdeal.Gen.shapeCasts_S1x1_S_ i) (Ideal.ofBits .f32 0x46800000#32))
      - (Ideal.ofBits .f32 0x3F800000#32 - Cert.GraphLoss.predAvgK (Cert.GraphLoss.rows (userRows (F := Ideal) V0)) (Cert.GraphLoss.rows (posRows (F := Ideal) V0)) (Cert.GraphLoss.rows (negRows (F := Ideal) V0)) (Ideal.ofBits .f32 0x46800000#32)) * Ideal.log (Ideal.ofBits .f32 0x3F800000#32 - Ideal.div (shapeCast Cert.KernelIdeal.main_v106.ty.shape (Cert.KernelIdeal.Gen.W6 m ρ c (Proc.devRef .tc Cert.KernelIdeal.main_v105)) Cert.KernelIdeal.Gen.shapeCasts_S1x1_S_ i) (Ideal.ofBits .f32 0x46800000#32)))
      + Ideal.ofBits .f32 0x3C23D70A#32 * Cert.GraphLoss.meanPredLogK (Cert.GraphLoss.rows (userRows (F := Ideal) V0)) (Cert.GraphLoss.rows (posRows (F := Ideal) V0)) (Cert.GraphLoss.rows (negRows (F := Ideal) V0)) (Ideal.ofBits .f32 0x46800000#32) = _
  rw [hul, Cert.GraphLoss.ofBits_one]

/-! ## The two arrangements at the count's float word -/

/-- The count's float word is the real 16384, not zero: the cross-entropy negated-then-divided is divided-then-negated. -/
theorem bce_same (u p q : Fin 8192 → Fin 128 → EReal) :
    Cert.GraphLoss.bceR u p q (Ideal.ofBits .f32 0x46800000#32) = Cert.GraphLoss.bceK u p q (Ideal.ofBits .f32 0x46800000#32) := by
  rw [Cert.GraphLoss.ofBits_count]; exact (Cert.GraphLoss.bceK_eq_bceR u p q).symm

/-- The second loss is one expression of three means and a sampled mean, each the same number in both arrangements. -/
theorem info_same (w1 w2 n : EReal) (u p q : Fin 8192 → Fin 128 → EReal) (su si : Fin 16384 → Fin 128 → EReal) :
    Cert.GraphLoss.infoOf w1 w2 (Cert.GraphLoss.predAvgR u p q n) (Cert.GraphLoss.predUlAvgR su si n) (Cert.GraphLoss.meanPredLogR u p q n)
      = Cert.GraphLoss.infoOf w1 w2 (Cert.GraphLoss.predAvgK u p q n) (Cert.GraphLoss.predUlAvgK su si n) (Cert.GraphLoss.meanPredLogK u p q n) := by
  rw [Cert.GraphLoss.predAvgK_eq_predAvgR, Cert.GraphLoss.predUlAvgK_eq_predUlAvgR, Cert.GraphLoss.meanPredLogK_eq_meanPredLogR]

end Cert.Bridge
end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.RefRead.lean ====
/-
  The reference program's two results, read as the mathematical functions of the second arrangement.

  The reference gathers five tables of embedding rows (the batch's user rows, its positive and its negative item rows,
  and the sampled pairs' user and item rows), stacks the user rows on themselves and the positive rows on the negative
  ones, multiplies the two stacks entry by entry, sums each row from an initial zero, and turns the 16384 row sums
  into predictions 1 / (1 + e^(-z)). The labels are a vector of ones stacked on a vector of zeros. Each result is a
  sum over the 16384 predictions from an initial zero, divided by the count word.

  Read at an index: an elementwise operation acts on the entries; a scalar repeated over a shape is the scalar; a sum
  along the columns is the sum over the column coordinate; a sum of a vector down to a scalar is the initial value plus
  the sum over all entries; two pieces of 8192 rows stacked along the leading axis read the first piece below row
  8192 and the second piece, 8192 rows lower, from there on. The results depend on the five gathered
  tables only through their entries.
-/
import proofs.«100895_j67216238183228_1_alg».proof.Proof.Gen.ReferenceIdeal.Run
import proofs.«100895_j67216238183228_1_alg».proof.Proof.RefTables
import proofs.«100895_j67216238183228_1_alg».proof.Proof.LossSpec
import proofs.«100895_j67216238183228_1_alg».proof.Proof.LibHostRead
import proofs.«100895_j67216238183228_1_alg».proof.Proof.LibRowOps
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.Value Cert.GraphLoss Idealize.ShloMosaic
  Idealize.ShloMosaic.ValueIdx Idealize.ShloMosaic.TcCoe Idealize.SL.Sem Idealize.ShloMosaic.StableHlo

/-! ## Two pieces of 8192 rows stacked along the leading axis -/

/-- Two matrices of 8192 rows stacked: row j of the stack is row j of the first piece when j < 8192 and row
    j - 8192 of the second otherwise. -/
theorem stackRows_apply {α : Type} (x y : (⟨2, ![8192, 128]⟩ : Shape).Idx → α)
    (h : Shape.Concatenates [⟨2, ![8192, 128]⟩, ⟨2, ![8192, 128]⟩] ⟨2, ![16384, 128]⟩ 0) (j : Fin 16384) (k : Fin 128) :
    concatenate ⟨2, ![16384, 128]⟩ 0 [⟨⟨2, ![8192, 128]⟩, x⟩, ⟨⟨2, ![8192, 128]⟩, y⟩] h (ix2 j k)
      = stack (fun r c => x (ix2 r c)) (fun r c => y (ix2 r c)) j k := by
  unfold stack
  split
  · next hj =>
    exact concatenate_pair_apply_left (0 : Fin 2) x y h (ix2 j k) rfl (ix2 ⟨j.val, hj⟩ k) fun b =>
      match b with | ⟨0, _⟩ => rfl | ⟨1, _⟩ => rfl
  · next hj =>
    exact concatenate_pair_apply_right (0 : Fin 2) x y h (ix2 j k) rfl rfl (ix2 ⟨j.val - 8192, by omega⟩ k)
      (fun b hb => match b, hb with | ⟨0, _⟩, hb => absurd rfl hb | ⟨1, _⟩, _ => rfl)
      (by show (j.val - 8192) + 8192 = j.val; omega)

/-- Two vectors of 8192 entries stacked, likewise. -/
theorem stackVec_apply {α : Type} (x y : (⟨1, ![8192]⟩ : Shape).Idx → α)
    (h : Shape.Concatenates [⟨1, ![8192]⟩, ⟨1, ![8192]⟩] ⟨1, ![16384]⟩ 0) (j : Fin 16384) :
    concatenate ⟨1, ![16384]⟩ 0 [⟨⟨1, ![8192]⟩, x⟩, ⟨⟨1, ![8192]⟩, y⟩] h (ix1 j)
      = stack (fun r => x (ix1 r)) (fun r => y (ix1 r)) j := by
  unfold stack
  split
  · next hj =>
    exact concatenate_pair_apply_left (0 : Fin 1) x y h (ix1 j) rfl (ix1 ⟨j.val, hj⟩) fun b =>
      match b with | ⟨0, _⟩ => rfl
  · next hj =>
    exact concatenate_pair_apply_right (0 : Fin 1) x y h (ix1 j) rfl rfl (ix1 ⟨j.val - 8192, by omega⟩)
      (fun b hb => match b, hb with | ⟨0, _⟩, hb => absurd rfl hb)
      (by show (j.val - 8192) + 8192 = j.val; omega)

/-! ## A vector summed down to a scalar -/

/-- The indices of a vector of n entries are its n coordinates. -/
def idxEquiv1 {n : ℕ} : Fin n ≃ (⟨1, ![n]⟩ : Shape).Idx where
  toFun := ix1
  invFun i := i 0
  left_inv _ := rfl
  right_inv i := (eq_ix1 i).symm

/-- The host's sum of a vector down to a scalar, from the zero word: zero plus the sum of the entries. -/
theorem hostTotal_apply {n : ℕ} {u : Shape} (x : FVec Ideal ⟨1, ![n]⟩ .f32)
    (h' : Shape.ReducesTo ⟨1, ![n]⟩ [0] ⟨0, ![]⟩) (hu : 0 < u.numel) :
    Host.reduceAdd (F := Ideal) x (constant (F := Ideal) u .f32 0x00000000#32) h' hu ix0 = 0 + ∑ j : Fin n, x (ix1 j) := by
  refine (hostReduceAdd_apply x _ h' hu ix0).trans ?_
  refine (Ideal.hostReduceAdd_total h' (fun b => b.elim0) x _ ix0).trans ?_
  show Ideal.ofBits .f32 0x00000000#32 + _ = _
  rw [Ideal.ofBits_zero_f32]
  exact congrArg (fun z => 0 + z) (Equiv.sum_comp idxEquiv1 x).symm

/-- A mean as the host spells it: the sum of a vector from the zero word, divided by a count word. -/
theorem meanOf_apply {n : ℕ} (x : FVec Ideal ⟨1, ![n]⟩ .f32) (p : Fin n → EReal) (hx : ∀ j, x (ix1 j) = p j)
    (hr : Shape.ReducesTo ⟨1, ![n]⟩ [0] ⟨0, ![]⟩) (hu : 0 < (⟨0, ![]⟩ : Shape).numel) (w : BitVec 32) :
    Host.divf (F := Ideal) (Host.reduceAdd (F := Ideal) x (constant (F := Ideal) ⟨0, ![]⟩ .f32 0x00000000#32) hr hu)
      (constant (F := Ideal) ⟨0, ![]⟩ .f32 w) ix0 = Ideal.div (0 + ∑ j : Fin n, p j) (Ideal.ofBits .f32 w) := by
  show Ideal.div (Host.reduceAdd (F := Ideal) x _ hr hu ix0) (Ideal.ofBits .f32 w) = _
  rw [hostTotal_apply]
  exact congrArg (fun z => Ideal.div (0 + z) _) (Finset.sum_congr rfl fun j _ => hx j)

/-! ## The predictions, the labels and the two losses over generic tables -/

/-- The prediction of row j from the row sums of an entrywise product: 1 / (1 + e^(-z)), z summed from zero. -/
theorem logisticOf_apply {n : ℕ} (a b : FVec Ideal ⟨2, ![n, 128]⟩ .f32)
    (hb : (⟨0, ![]⟩ : Shape).BroadcastsInDim ⟨1, ![n]⟩ ![])
    (hr : Shape.ReducesTo ⟨2, ![n, 128]⟩ [1] ⟨1, ![n]⟩) (hu : 0 < (⟨0, ![]⟩ : Shape).numel) (j : Fin n) :
    Host.divf (F := Ideal) (broadcastInDim ⟨1, ![n]⟩ ![] hb (constant (F := Ideal) ⟨0, ![]⟩ .f32 0x3F800000#32))
      (addf (broadcastInDim ⟨1, ![n]⟩ ![] hb (constant (F := Ideal) ⟨0, ![]⟩ .f32 0x3F800000#32))
        (Host.exp (Host.negf (Host.reduceAdd (F := Ideal) (mulf a b)
          (constant (F := Ideal) ⟨0, ![]⟩ .f32 0x00000000#32) hr hu)))) (ix1 j)
      = Ideal.div 1 (1 + Ideal.exp (-(0 + ∑ k : Fin 128, a (ix2 j k) * b (ix2 j k)))) := by
  show Ideal.div (broadcastInDim _ _ hb _ (ix1 j))
    (broadcastInDim _ _ hb _ (ix1 j) + Ideal.exp (-(Host.reduceAdd (F := Ideal) (mulf a b) _ hr hu (ix1 j)))) = _
  rw [Hmu.Lib.bcast_const_apply, ofBits_one, Hmu.Lib.hostReduceAdd_ab_axis1_apply, zero_add]
  rfl

/-- The cross-entropy as the host spells it: the labels times the logarithms of the predictions plus one minus the
    labels times the logarithms of one minus the predictions, summed from zero, divided by the count, negated. -/
theorem bceOf_apply {n : ℕ} (x l : FVec Ideal ⟨1, ![n]⟩ .f32) (p lab : Fin n → EReal)
    (hx : ∀ j, x (ix1 j) = p j) (hl : ∀ j, l (ix1 j) = lab j)
    (hb : (⟨0, ![]⟩ : Shape).BroadcastsInDim ⟨1, ![n]⟩ ![])
    (hr : Shape.ReducesTo ⟨1, ![n]⟩ [0] ⟨0, ![]⟩) (hu : 0 < (⟨0, ![]⟩ : Shape).numel) (w : BitVec 32) :
    Host.negf (Host.divf (F := Ideal) (Host.reduceAdd (F := Ideal)
        (addf (mulf l (Host.log x)) (mulf (subf (broadcastInDim ⟨1, ![n]⟩ ![] hb (constant (F := Ideal) ⟨0, ![]⟩ .f32 0x3F800000#32)) l) (Host.log (subf (broadcastInDim ⟨1, ![n]⟩ ![] hb (constant (F := Ideal) ⟨0, ![]⟩ .f32 0x3F800000#32)) x))))
        (constant (F := Ideal) ⟨0, ![]⟩ .f32 0x00000000#32) hr hu) (constant (F := Ideal) ⟨0, ![]⟩ .f32 w)) ix0
      = -(Ideal.div (0 + ∑ j : Fin n, (lab j * Ideal.log (p j) + (1 - lab j) * Ideal.log (1 - p j)))
          (Ideal.ofBits .f32 w)) := by
  refine (Hmu.Lib.hostNegf_apply _ ix0).trans (congrArg Neg.neg ?_)
  refine meanOf_apply _ _ (fun j => ?_) hr hu w
  show l (ix1 j) * Ideal.log (x (ix1 j))
    + (broadcastInDim _ _ hb _ (ix1 j) - l (ix1 j)) * Ideal.log (broadcastInDim _ _ hb _ (ix1 j) - x (ix1 j)) = _
  rw [Hmu.Lib.bcast_const_apply, ofBits_one, hx, hl]

/-- The second loss as the host spells it, from two scalars a, b and the vector of predictions. -/
theorem infoOf_apply {n : ℕ} (a b : FVec Ideal ⟨0, ![]⟩ .f32) (x : FVec Ideal ⟨1, ![n]⟩ .f32) (p : Fin n → EReal)
    (hx : ∀ j, x (ix1 j) = p j)
    (hr : Shape.ReducesTo ⟨1, ![n]⟩ [0] ⟨0, ![]⟩) (hu : 0 < (⟨0, ![]⟩ : Shape).numel) (w1 w2 w : BitVec 32) :
    addf (mulf (constant (F := Ideal) ⟨0, ![]⟩ .f32 w1)
        (subf (mulf (Host.negf a) (Host.log b))
          (mulf (subf (constant (F := Ideal) ⟨0, ![]⟩ .f32 0x3F800000#32) a)
            (Host.log (subf (constant (F := Ideal) ⟨0, ![]⟩ .f32 0x3F800000#32) b)))))
      (mulf (constant (F := Ideal) ⟨0, ![]⟩ .f32 w2)
        (Host.divf (F := Ideal) (Host.reduceAdd (F := Ideal) (mulf x (Host.log x))
          (constant (F := Ideal) ⟨0, ![]⟩ .f32 0x00000000#32) hr hu) (constant (F := Ideal) ⟨0, ![]⟩ .f32 w))) ix0
      = infoOf (Ideal.ofBits .f32 w1) (Ideal.ofBits .f32 w2) (a ix0) (b ix0)
          (Ideal.div (0 + ∑ j : Fin n, p j * Ideal.log (p j)) (Ideal.ofBits .f32 w)) := by
  have hm := meanOf_apply (mulf x (Host.log x)) (fun j => p j * Ideal.log (p j))
    (fun j => by show x (ix1 j) * Ideal.log (x (ix1 j)) = _; rw [hx]) hr hu w
  unfold infoOf
  show Ideal.ofBits .f32 w1 * ((-(a ix0)) * Ideal.log (b ix0)
      - (Ideal.ofBits .f32 0x3F800000#32 - a ix0) * Ideal.log (Ideal.ofBits .f32 0x3F800000#32 - b ix0))
    + Ideal.ofBits .f32 w2 * (Host.divf (F := Ideal) (Host.reduceAdd (F := Ideal) (mulf x (Host.log x))
          (constant (F := Ideal) ⟨0, ![]⟩ .f32 0x00000000#32) hr hu) (constant (F := Ideal) ⟨0, ![]⟩ .f32 w) ix0) = _
  rw [ofBits_one, hm]

/-! ## The reference program's terms -/

/-- The 16384 predictions over the three batch tables. -/
theorem pred_shape (V0 : Valuation τ sig (Elt Ideal)) :
    res_main_v83 (F := Ideal) V0 = Host.divf (F := Ideal) (broadcastInDim S16384 ![] bcast_S_S16384 (constant (F := Ideal) S_ .f32 0x3F800000#32)) (addf (broadcastInDim S16384 ![] bcast_S_S16384 (constant (F := Ideal) S_ .f32 0x3F800000#32)) (Host.exp (Host.negf (Host.reduceAdd (F := Ideal) (mulf (concatenate S16384x128 0 [⟨S8192x128, (userRows (F := Ideal) V0)⟩, ⟨S8192x128, (userRows (F := Ideal) V0)⟩] concatenates_S8192x128_S8192x128_S16384x128_d0) (concatenate S16384x128 0 [⟨S8192x128, (posRows (F := Ideal) V0)⟩, ⟨S8192x128, (negRows (F := Ideal) V0)⟩] concatenates_S8192x128_S8192x128_S16384x128_d0)) (constant (F := Ideal) S_ .f32 0x00000000#32) reducesTo_S16384x128_S16384_d1 h_S_)))) := by
  unfold res_main_v83 userRows posRows negRows
  rfl

/-- Prediction j is the second arrangement's prediction of stacked row j. -/
theorem pred_apply (V0 : Valuation τ sig (Elt Ideal)) (j : Fin 16384) :
    res_main_v83 (F := Ideal) V0 (ix1 j) = predR (rows (userRows (F := Ideal) V0)) (rows (posRows (F := Ideal) V0)) (rows (negRows (F := Ideal) V0)) j := by
  rw [pred_shape]
  generalize userRows (F := Ideal) V0 = u
  generalize posRows (F := Ideal) V0 = p
  generalize negRows (F := Ideal) V0 = q
  refine (logisticOf_apply _ _ bcast_S_S16384 reducesTo_S16384x128_S16384_d1 h_S_ j).trans ?_
  unfold predR
  refine congrArg (fun z => Ideal.div 1 (1 + Ideal.exp (-(0 + z)))) (Finset.sum_congr rfl fun k _ => ?_)
  rw [stackRows_apply, stackRows_apply]
  rfl

/-- Label j: one in the first half, zero in the second. -/
theorem label_apply (V0 : Valuation τ sig (Elt Ideal)) (j : Fin 16384) :
    res_main_v86 (F := Ideal) V0 (ix1 j) = labelR j := by
  unfold res_main_v86
  rw [stackVec_apply]
  unfold labelR stack
  split
  · exact (Hmu.Lib.bcast_const_apply _ bcast_S_S8192 _).trans ofBits_one
  · exact (Hmu.Lib.bcast_const_apply _ bcast_S_S8192 _).trans ofBits_zero

/-- The mean prediction. -/
theorem predAvg_eq (V0 : Valuation τ sig (Elt Ideal)) :
    res_main_v123 (F := Ideal) V0 ix0 = predAvgR (rows (userRows (F := Ideal) V0)) (rows (posRows (F := Ideal) V0)) (rows (negRows (F := Ideal) V0)) (Ideal.ofBits .f32 0x46800000#32) := by
  unfold res_main_v123
  have hx := pred_apply V0
  generalize res_main_v83 (F := Ideal) V0 = x at hx ⊢
  exact meanOf_apply x _ hx reducesTo_S16384_S_d0 h_S_ _

/-- The sampled pairs' predictions over the two sampled tables. -/
theorem predUl_shape (V0 : Valuation τ sig (Elt Ideal)) :
    res_main_v125 (F := Ideal) V0 = Host.divf (F := Ideal) (Host.reduceAdd (F := Ideal) (Host.divf (F := Ideal) (broadcastInDim S16384 ![] bcast_S_S16384 (constant (F := Ideal) S_ .f32 0x3F800000#32)) (addf (broadcastInDim S16384 ![] bcast_S_S16384 (constant (F := Ideal) S_ .f32 0x3F800000#32)) (Host.exp (Host.negf (Host.reduceAdd (F := Ideal) (mulf (sampledUserRows (F := Ideal) V0) (sampledItemRows (F := Ideal) V0)) (constant (F := Ideal) S_ .f32 0x00000000#32) reducesTo_S16384x128_S16384_d1 h_S_))))) (constant (F := Ideal) S_ .f32 0x00000000#32) reducesTo_S16384_S_d0 h_S_) (constant (F := Ideal) S_ .f32 0x46800000#32) := by
  unfold res_main_v125 sampledUserRows sampledItemRows
  rfl

/-- The mean prediction over the sampled pairs. -/
theorem predUlAvg_eq (V0 : Valuation τ sig (Elt Ideal)) :
    res_main_v125 (F := Ideal) V0 ix0 = predUlAvgR (rows (sampledUserRows (F := Ideal) V0)) (rows (sampledItemRows (F := Ideal) V0)) (Ideal.ofBits .f32 0x46800000#32) := by
  rw [predUl_shape]
  generalize sampledUserRows (F := Ideal) V0 = su
  generalize sampledItemRows (F := Ideal) V0 = si
  exact meanOf_apply _ _ (fun j => logisticOf_apply su si bcast_S_S16384 reducesTo_S16384x128_S16384_d1 h_S_ j)
    reducesTo_S16384_S_d0 h_S_ _

/-- The first result: the cross-entropy of the second arrangement. -/
theorem result0_eq (V0 : Valuation τ sig (Elt Ideal)) :
    (Host.negf (Host.divf (F := Ideal) (Host.reduceAdd (F := Ideal) (addf (mulf (res_main_v86 (F := Ideal) V0) (Host.log (res_main_v83 (F := Ideal) V0))) (mulf (subf (broadcastInDim S16384 ![] bcast_S_S16384 (constant (F := Ideal) S_ .f32 0x3F800000#32)) (res_main_v86 (F := Ideal) V0)) (Host.log (subf (broadcastInDim S16384 ![] bcast_S_S16384 (constant (F := Ideal) S_ .f32 0x3F800000#32)) (res_main_v83 (F := Ideal) V0))))) (constant (F := Ideal) S_ .f32 0x00000000#32) reducesTo_S16384_S_d0 h_S_) (constant (F := Ideal) S_ .f32 0x46800000#32))) = fun _ => bceR (rows (userRows (F := Ideal) V0)) (rows (posRows (F := Ideal) V0)) (rows (negRows (F := Ideal) V0)) (Ideal.ofBits .f32 0x46800000#32) := by
  funext i
  obtain rfl := eq_ix0 i
  have hx := pred_apply V0
  have hl := label_apply V0
  generalize res_main_v83 (F := Ideal) V0 = x at hx ⊢
  generalize res_main_v86 (F := Ideal) V0 = l at hl ⊢
  exact bceOf_apply x l _ _ hx hl bcast_S_S16384 reducesTo_S16384_S_d0 h_S_ _

/-- The second result: the second loss from the three means of the second arrangement. -/
theorem result1_eq (V0 : Valuation τ sig (Elt Ideal)) :
    (addf (mulf (constant (F := Ideal) S_ .f32 0x3DCCCCCD#32) (subf (mulf (Host.negf (res_main_v123 (F := Ideal) V0)) (Host.log (res_main_v125 (F := Ideal) V0))) (mulf (subf (constant (F := Ideal) S_ .f32 0x3F800000#32) (res_main_v123 (F := Ideal) V0)) (Host.log (subf (constant (F := Ideal) S_ .f32 0x3F800000#32) (res_main_v125 (F := Ideal) V0)))))) (mulf (constant (F := Ideal) S_ .f32 0x3C23D70A#32) (Host.divf (F := Ideal) (Host.reduceAdd (F := Ideal) (mulf (res_main_v83 (F := Ideal) V0) (Host.log (res_main_v83 (F := Ideal) V0))) (constant (F := Ideal) S_ .f32 0x00000000#32) reducesTo_S16384_S_d0 h_S_) (constant (F := Ideal) S_ .f32 0x46800000#32)))) = fun _ => infoOf (Ideal.ofBits .f32 0x3DCCCCCD#32) (Ideal.ofBits .f32 0x3C23D70A#32)
      (predAvgR (rows (userRows (F := Ideal) V0)) (rows (posRows (F := Ideal) V0)) (rows (negRows (F := Ideal) V0)) (Ideal.ofBits .f32 0x46800000#32)) (predUlAvgR (rows (sampledUserRows (F := Ideal) V0)) (rows (sampledItemRows (F := Ideal) V0)) (Ideal.ofBits .f32 0x46800000#32)) (meanPredLogR (rows (userRows (F := Ideal) V0)) (rows (posRows (F := Ideal) V0)) (rows (negRows (F := Ideal) V0)) (Ideal.ofBits .f32 0x46800000#32)) := by
  funext i
  obtain rfl := eq_ix0 i
  have hx := pred_apply V0
  have ha := predAvg_eq V0
  have hb := predUlAvg_eq V0
  generalize res_main_v123 (F := Ideal) V0 = a at ha ⊢
  generalize res_main_v125 (F := Ideal) V0 = b at hb ⊢
  generalize res_main_v83 (F := Ideal) V0 = x at hx ⊢
  refine (infoOf_apply a b x _ hx reducesTo_S16384_S_d0 h_S_ _ _ _).trans ?_
  rw [ha, hb]
  rfl

end Cert.ReferenceIdeal.RefRead

end
-- ==== Proof.lean ====
/-
  The certificate of a graph recommender's two training losses: a program that pools four propagated embedding tables
  in a tiled kernel, sums the batch's log-likelihood terms in a second kernel and the sampled pairs' predictions in a
  third (a running total carried across its two grid points), against the plain array program.

  The claim has five parts. The three frames: each program runs to the end, faults nowhere and leaves its ten argument
  arrays as launched — for the two kernel programs through the three kernel regions among four stretches of host
  operations (FrameK, FrameKI), for the reference program by its run read back. The idealized kernel program is the
  kernel program's own text read over the extended reals (no operation was rewritten, so nothing is owed there). And at
  the extended reals the two idealized programs, launched on the same arguments, end with equal results: both results
  are functions of the same five tables of embedding rows (KernelChain for the kernel program, RefRead for the
  reference), written in two arrangements (LossSpec) that LossLaws proves equal with no finiteness assumption — sums
  over a batch split into halves, a zero label annihilating its term, a quarter of a sum being the sum divided by four,
  and a negation moved across a division by the real 16384.
-/
import proofs.«100895_j67216238183228_1_alg».proof.Defs
import proofs.«100895_j67216238183228_1_alg».proof.Proof.Gen.Kernel
import proofs.«100895_j67216238183228_1_alg».proof.Proof.Gen.KernelIdeal
import proofs.«100895_j67216238183228_1_alg».proof.Proof.Gen.ReferenceIdeal
import proofs.«100895_j67216238183228_1_alg».proof.Proof.Gen.Pre_finite_inputs
import proofs.«100895_j67216238183228_1_alg».proof.Proof.Gen.ReferenceIdeal.Run
import proofs.«100895_j67216238183228_1_alg».proof.Proof.FrameK
import proofs.«100895_j67216238183228_1_alg».proof.Proof.FrameKI
import proofs.«100895_j67216238183228_1_alg».proof.Proof.KernelChain
import proofs.«100895_j67216238183228_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

/-- The kernel program runs to the end, faults nowhere, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference program's run ends with its arguments as launched (its two results dropped from the run's post). -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two idealized programs end with the same two losses: the kernel program's are the first arrangement of the
    five tables, the reference's the second, and the two arrangements are equal. -/
theorem algebraic : Cert.algebraic_KernelIdeal_ReferenceIdeal := by
  intro m ρ m' ρ' _ hagree
  have hs : ∀ c : Dev Cert.KernelIdeal.nD, Cert.Bridge.SameArgs m ρ (StableHlo.launchContents m' c) c := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2⟩
  refine ⟨fun c _ => Cert.GraphLoss.bceK (Cert.GraphLoss.rows (Cert.ReferenceIdeal.RefRead.userRows (F := Ideal) (StableHlo.launchContents m' c))) (Cert.GraphLoss.rows (Cert.ReferenceIdeal.RefRead.posRows (F := Ideal) (StableHlo.launchContents m' c))) (Cert.GraphLoss.rows (Cert.ReferenceIdeal.RefRead.negRows (F := Ideal) (StableHlo.launchContents m' c))) (Ideal.ofBits .f32 0x46800000#32),
    fun c _ => Cert.GraphLoss.infoOf (Ideal.ofBits .f32 0x3DCCCCCD#32) (Ideal.ofBits .f32 0x3C23D70A#32)
      (Cert.GraphLoss.predAvgK (Cert.GraphLoss.rows (Cert.ReferenceIdeal.RefRead.userRows (F := Ideal) (StableHlo.launchContents m' c))) (Cert.GraphLoss.rows (Cert.ReferenceIdeal.RefRead.posRows (F := Ideal) (StableHlo.launchContents m' c))) (Cert.GraphLoss.rows (Cert.ReferenceIdeal.RefRead.negRows (F := Ideal) (StableHlo.launchContents m' c))) (Ideal.ofBits .f32 0x46800000#32)) (Cert.GraphLoss.predUlAvgK (Cert.GraphLoss.rows (Cert.ReferenceIdeal.RefRead.sampledUserRows (F := Ideal) (StableHlo.launchContents m' c))) (Cert.GraphLoss.rows (Cert.ReferenceIdeal.RefRead.sampledItemRows (F := Ideal) (StableHlo.launchContents m' c))) (Ideal.ofBits .f32 0x46800000#32))
      (Cert.GraphLoss.meanPredLogK (Cert.GraphLoss.rows (Cert.ReferenceIdeal.RefRead.userRows (F := Ideal) (StableHlo.launchContents m' c))) (Cert.GraphLoss.rows (Cert.ReferenceIdeal.RefRead.posRows (F := Ideal) (StableHlo.launchContents m' c))) (Cert.GraphLoss.rows (Cert.ReferenceIdeal.RefRead.negRows (F := Ideal) (StableHlo.launchContents m' c))) (Ideal.ofBits .f32 0x46800000#32)), ?_, ?_⟩
  · refine (θ_run Cert.KernelIdeal.defs _ _).mono (fun r h c => ?_) (Cert.KernelIdeal.Gen.run_all m ρ)
    exact ⟨(h c Cert.KernelIdeal.main_v100 (by decide)).trans (Cert.Bridge.result0 m ρ _ c (hs c)),
      (h c Cert.KernelIdeal.main_v118 (by decide)).trans (Cert.Bridge.result1 m ρ _ c (hs c)),
      (h c Cert.KernelIdeal.main_arg0 (by decide)).trans (Cert.KernelIdeal.Gen.W7_main_arg0 m ρ c),
      (h c Cert.KernelIdeal.main_arg1 (by decide)).trans (Cert.KernelIdeal.Gen.W7_main_arg1 m ρ c),
      (h c Cert.KernelIdeal.main_arg2 (by decide)).trans (Cert.KernelIdeal.Gen.W7_main_arg2 m ρ c),
      (h c Cert.KernelIdeal.main_arg3 (by decide)).trans (Cert.KernelIdeal.Gen.W7_main_arg3 m ρ c),
      (h c Cert.KernelIdeal.main_arg4 (by decide)).trans (Cert.KernelIdeal.Gen.W7_main_arg4 m ρ c),
      (h c Cert.KernelIdeal.main_arg5 (by decide)).trans (Cert.KernelIdeal.Gen.W7_main_arg5 m ρ c),
      (h c Cert.KernelIdeal.main_arg6 (by decide)).trans (Cert.KernelIdeal.Gen.W7_main_arg6 m ρ c),
      (h c Cert.KernelIdeal.main_arg7 (by decide)).trans (Cert.KernelIdeal.Gen.W7_main_arg7 m ρ c),
      (h c Cert.KernelIdeal.main_arg8 (by decide)).trans (Cert.KernelIdeal.Gen.W7_main_arg8 m ρ c),
      (h c Cert.KernelIdeal.main_arg9 (by decide)).trans (Cert.KernelIdeal.Gen.W7_main_arg9 m ρ c)⟩
  · refine (θ_run Cert.ReferenceIdeal.defs _ _).mono (fun r h c => ?_) (Cert.ReferenceIdeal.Value.run (F := Ideal) m' ρ')
    exact ⟨(h c).1.trans ((Cert.ReferenceIdeal.RefRead.result0_eq _).trans (funext fun _ => Cert.Bridge.bce_same _ _ _)),
      (h c).2.1.trans ((Cert.ReferenceIdeal.RefRead.result1_eq _).trans (funext fun _ => Cert.Bridge.info_same _ _ _ _ _ _ _ _)),
      (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
